-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S16x128 : Shape := ⟨2, ![16, 128]⟩
abbrev S128 : Shape := ⟨1, ![128]⟩
abbrev S4x128x128 : Shape := ⟨3, ![4, 128, 128]⟩
abbrev S4x128 : Shape := ⟨2, ![4, 128]⟩
abbrev S128x3 : Shape := ⟨2, ![128, 3]⟩
abbrev S3 : Shape := ⟨1, ![3]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S4x128 .f32) (main_arg6 : FVec F S128x3 .f32) (main_arg7 : FVec F S3 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128x3 .f32 := Host.absf main_arg6
  let main_cst_8 : FVec F S_ .f32 := constant S_ .f32 0x7F800000#32
  let main_v25 : FVec F S128x3 .f32 := broadcastInDim S128x3 ![] bcast_S_S128x3 main_cst_8
  let main_v26 : IVec S128x3 1 := cmpf .olt main_v24 main_v25
  let main_c_9 : IVec S_ 1 := constantI S_ 1 1#1
  let main_v27 : IVec S_ 1 := (fun x v => Host.reduce IntOp.andi x v reducesTo_S128x3_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S100000x16 .f32) (main_arg1 : IVec S2x1600000 32) (main_arg2 : FVec F S16x128 .f32) (main_arg3 : FVec F S128 .f32) (main_arg4 : FVec F S4x128x128 .f32) (main_arg5 : FVec F S4x128 .f32) (main_arg6 : FVec F S128x3 .f32) (main_arg7 : FVec F S3 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg4
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg5 main_arg6 main_arg7 main_v13 main_v16
-- ==== Kernel.lean ====
abbrev S100000x16 : Shape := ⟨2, ![100000, 16]⟩
abbrev S2x1600000 : Shape := ⟨2, ![2, 1600000]⟩
abbrev S16x128 : Shape := ⟨2, ![16, 128]⟩
abbrev S128 : Shape := ⟨1, ![128]⟩
abbrev S4x128x128 : Shape := ⟨3, ![4, 128, 128]⟩
abbrev S4x128 : Shape := ⟨2, ![4, 128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x16 : Shape := ⟨2, ![10000, 16]⟩
abbrev S10000x128 : Shape := ⟨2, ![10000, 128]⟩
abbrev S1x128 : Shape := ⟨2, ![1, 128]⟩
abbrev S1x128x128 : Shape := ⟨3, ![1, 128, 128]⟩
abbrev S128x128 : Shape := ⟨2, ![128, 128]⟩
abbrev S1700000x128 : Shape := ⟨2, ![1700000, 128]⟩
abbrev S100000x3 : Shape := ⟨2, ![100000, 3]⟩
abbrev S10000x3 : Shape := ⟨2, ![10000, 3]⟩
abbrev S1x3 : Shape := ⟨2, ![1, 3]⟩

abbrev nBuf : Space → Nat
  | .hbm => 131
  | .vmem => 36
  | .smem => 0
  | _ => 0

abbrev hbmTy0_0 (i : Nat) : BufTy := match i % 128 with
  | 0 => ⟨S100000x16, .f32⟩
  | 1 => ⟨S2x1600000, .i32⟩
  | 2 => ⟨S16x128, .f32⟩
  | 3 => ⟨S128, .f32⟩
  | 4 => ⟨S4x128x128, .f32⟩
  | 5 => ⟨S4x128, .f32⟩
  | 6 => ⟨S128x3, .f32⟩
  | 7 => ⟨S3, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S1700000x1, .f32⟩
  | 49 => ⟨S100000x128, .f32⟩
  | 50 => ⟨S1x128x128, .f32⟩
  | 51 => ⟨S128x128, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S128, .f32⟩
  | 70 => ⟨S1x128x128, .f32⟩
  | 71 => ⟨S128x128, .f32⟩
  | 72 => ⟨S100000x128, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x128, .f32⟩
  | 82 => ⟨S1700000x128, .f32⟩
  | 83 => ⟨S1700000x128, .f32⟩
  | 84 => ⟨S_, .f32⟩
  | 85 => ⟨S100000x128, .f32⟩
  | 86 => ⟨S1700000x1, .i32⟩
  | 87 => ⟨S100000x128, .f32⟩
  | 88 => ⟨S1x128, .f32⟩
  | 89 => ⟨S128, .f32⟩
  | 90 => ⟨S1x128x128, .f32⟩
  | 91 => ⟨S128x128, .f32⟩
  | 92 => ⟨S100000x128, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x128, .f32⟩
  | 102 => ⟨S1700000x128, .f32⟩
  | 103 => ⟨S1700000x128, .f32⟩
  | 104 => ⟨S_, .f32⟩
  | 105 => ⟨S100000x128, .f32⟩
  | 106 => ⟨S1700000x1, .i32⟩
  | 107 => ⟨S100000x128, .f32⟩
  | 108 => ⟨S1x128, .f32⟩
  | 109 => ⟨S128, .f32⟩
  | 110 => ⟨S1x128x128, .f32⟩
  | 111 => ⟨S128x128, .f32⟩
  | 112 => ⟨S100000x128, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x128, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x16, .f32⟩

abbrev hbmTy0_1 (i : Nat) : BufTy := match i % 128 with
  | 0 => ⟨S1x128, .f32⟩
  | 1 => ⟨S128, .f32⟩
  | 2 => ⟨S100000x3, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S10000x16, .f32⟩
  | .local _ .vmem, ⟨1, _⟩ => ⟨S10000x16, .f32⟩
  | .local _ .vmem, ⟨2, _⟩ => ⟨S16x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S128, .f32⟩
  | .local _ .vmem, ⟨20, _⟩ => ⟨S128x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S128, .f32⟩
  | .local _ .vmem, ⟨26, _⟩ => ⟨S128x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S128, .f32⟩
  | .local _ .vmem, ⟨32, _⟩ => ⟨S128x3, .f32⟩
  | .local _ .vmem, ⟨33, _⟩ => ⟨S3, .f32⟩
  | .local _ .vmem, ⟨34, _⟩ => ⟨S10000x3, .f32⟩
  | .local _ .vmem, ⟨35, _⟩ => ⟨S10000x3, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_12 : Ref sig .tc := ⟨.hbm, 93, rfl⟩
abbrev main_v69 : Ref sig .tc := ⟨.hbm, 94, rfl⟩
abbrev main_v70 : Ref sig .tc := ⟨.hbm, 95, rfl⟩
abbrev main_c_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_14 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_15 : Ref sig .tc := ⟨.hbm, 113, rfl⟩
abbrev main_v86 : Ref sig .tc := ⟨.hbm, 114, rfl⟩
abbrev main_v87 : Ref sig .tc := ⟨.hbm, 115, rfl⟩
abbrev main_c_16 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_17 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem4_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x3 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S3 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x3 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x16_S10000x16_0_0 : ∀ a, (![0, 0] : Fin 2 → Nat) a + S10000x16.size a ≤ S10000x16.size a
  h_S10000x16 : 0 < S10000x16.numel
  inb_S16x128_S16x128_0_0 : ∀ a, (![0, 0] : Fin 2 → Nat) a + S16x128.size a ≤ S16x128.size a
  h_S16x128 : 0 < S16x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  slices_S4x128x128_S1x128x128_0_0_0 : S4x128x128.Slices ![0, 0, 0] S1x128x128
  shapeCasts_S1x128x128_S128x128 : S1x128x128.ShapeCasts S128x128
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  shapeCasts_S128_S128 : S128.ShapeCasts S128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S10000x3 : S1x3.Broadcasts S10000x3
  inb_S10000x3_S10000x3_0_0 : ∀ a, (![0, 0] : Fin 2 → Nat) a + S10000x3.size a ≤ S10000x3.size a
  h_S10000x3 : 0 < S10000x3.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x16_S16x128_S10000x128_1_0_0_1_n_n_wf : DotDims.WF S10000x16 S16x128 S10000x128 [1] [0] [0] [1] [] []
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x3_S10000x3_1_0_0_1_n_n_wf : DotDims.WF S10000x128 S128x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x128.size a ≤ S100000x128.size a
  hwx4_3 : ∀ i : grid4.Coords, EltTy.bits .f32 = 32 ∨ (Rect.block (s := S100000x128) S10000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x3.size a ≤ S128x3.size a
  hwx5_2 : ∀ i : grid5.Coords, EltTy.bits .f32 = 32 ∨ (Rect.block (s := S128x3) S128x3.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S3.size a ≤ S3.size a
  hwx5_3 : ∀ i : grid5.Coords, EltTy.bits .f32 = 32 ∨ (Rect.block (s := S3) S3.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x3.size a ≤ S100000x3.size a
  hwx5_4 : ∀ i : grid5.Coords, EltTy.bits .f32 = 32 ∨ (Rect.block (s := S100000x3) S10000x3.size (cc5_transform_4 i) (hinb5_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x3_S10000x3_1_0_0_1_n_n : DotDims S10000x128 S128x3 S10000x3 where
  lhsContracting := [1]
  rhsContracting := [0]
  lhsNonContracting := [0]
  rhsNonContracting := [1]
  lhsBatch := []
  rhsBatch := []
  wf := dot_S10000x128_S128x3_S10000x3_1_0_0_1_n_n_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v63) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v80) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v85) S10000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v97) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v99) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg6) S128x3.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S3.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v100) S10000x3.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S16x128 : Shape := ⟨2, ![16, 128]⟩
abbrev S128 : Shape := ⟨1, ![128]⟩
abbrev S4x128x128 : Shape := ⟨3, ![4, 128, 128]⟩
abbrev S4x128 : Shape := ⟨2, ![4, 128]⟩
abbrev S128x3 : Shape := ⟨2, ![128, 3]⟩
abbrev S3 : Shape := ⟨1, ![3]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1x128 : Shape := ⟨2, ![1, 128]⟩
abbrev S1x128x128 : Shape := ⟨3, ![1, 128, 128]⟩
abbrev S128x128 : Shape := ⟨2, ![128, 128]⟩
abbrev S1700000x128 : Shape := ⟨2, ![1700000, 128]⟩
abbrev S100000x3 : Shape := ⟨2, ![100000, 3]⟩
abbrev S1x3 : Shape := ⟨2, ![1, 3]⟩

abbrev nBuf : Space → Nat
  | .hbm => 164
  | .vmem => 0
  | .smem => 0
  | _ => 0

abbrev hbmTy0_0 (i : Nat) : BufTy := match i % 128 with
  | 0 => ⟨S100000x16, .f32⟩
  | 1 => ⟨S2x1600000, .i32⟩
  | 2 => ⟨S16x128, .f32⟩
  | 3 => ⟨S128, .f32⟩
  | 4 => ⟨S4x128x128, .f32⟩
  | 5 => ⟨S4x128, .f32⟩
  | 6 => ⟨S128x3, .f32⟩
  | 7 => ⟨S3, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S1700000x1, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S1x128x128, .f32⟩
  | 57 => ⟨S128x128, .f32⟩
  | 58 => ⟨S100000x128, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x128, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S1x128x128, .f32⟩
  | 83 => ⟨S128x128, .f32⟩
  | 84 => ⟨S100000x128, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000x128, .f32⟩
  | 94 => ⟨S1700000x128, .f32⟩
  | 95 => ⟨S1700000x128, .f32⟩
  | 96 => ⟨S_, .f32⟩
  | 97 => ⟨S100000x128, .f32⟩
  | 98 => ⟨S1700000x1, .i32⟩
  | 99 => ⟨S100000x128, .f32⟩
  | 100 => ⟨S1x128, .f32⟩
  | 101 => ⟨S128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S1x128x128, .f32⟩
  | 109 => ⟨S128x128, .f32⟩
  | 110 => ⟨S100000x128, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x128, .f32⟩
  | 120 => ⟨S1700000x128, .f32⟩
  | 121 => ⟨S1700000x128, .f32⟩
  | 122 => ⟨S_, .f32⟩
  | 123 => ⟨S100000x128, .f32⟩
  | 124 => ⟨S1700000x1, .i32⟩
  | 125 => ⟨S100000x128, .f32⟩
  | 126 => ⟨S1x128, .f32⟩
  | 127 => ⟨S128, .f32⟩
  | _ => ⟨S100000x16, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S1x128x128, .f32⟩
  | 7 => ⟨S128x128, .f32⟩
  | 8 => ⟨S100000x128, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S1700000x128, .f32⟩
  | 18 => ⟨S1700000x128, .f32⟩
  | 19 => ⟨S1700000x128, .f32⟩
  | 20 => ⟨S_, .f32⟩
  | 21 => ⟨S100000x128, .f32⟩
  | 22 => ⟨S1700000x1, .i32⟩
  | 23 => ⟨S100000x128, .f32⟩
  | 24 => ⟨S1x128, .f32⟩
  | 25 => ⟨S128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S100000x3, .f32⟩
  | 33 => ⟨S1x3, .f32⟩
  | 34 => ⟨S100000x3, .f32⟩
  | 35 => ⟨S100000x3, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call2_cst : Ref sig .tc := ⟨.hbm, 79, rfl⟩
abbrev main_call2_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_9 : Ref sig .tc := ⟨.hbm, 85, rfl⟩
abbrev main_v60 : Ref sig .tc := ⟨.hbm, 86, rfl⟩
abbrev main_v61 : Ref sig .tc := ⟨.hbm, 87, rfl⟩
abbrev main_c_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_11 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_call3_cst : Ref sig .tc := ⟨.hbm, 105, rfl⟩
abbrev main_call3_v0 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_12 : Ref sig .tc := ⟨.hbm, 111, rfl⟩
abbrev main_v81 : Ref sig .tc := ⟨.hbm, 112, rfl⟩
abbrev main_v82 : Ref sig .tc := ⟨.hbm, 113, rfl⟩
abbrev main_c_13 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_14 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call4_cst : Ref sig .tc := ⟨.hbm, 131, rfl⟩
abbrev main_call4_v0 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_15 : Ref sig .tc := ⟨.hbm, 137, rfl⟩
abbrev main_v102 : Ref sig .tc := ⟨.hbm, 138, rfl⟩
abbrev main_v103 : Ref sig .tc := ⟨.hbm, 139, rfl⟩
abbrev main_c_16 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_17 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_call5_cst : Ref sig .tc := ⟨.hbm, 157, rfl⟩
abbrev main_call5_v0 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x16_S16x128_S100000x128_1_0_0_1_n_n_wf : DotDims.WF S100000x16 S16x128 S100000x128 [1] [0] [0] [1] [] []
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x3_S100000x3_1_0_0_1_n_n_wf : DotDims.WF S100000x128 S128x3 S100000x3 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

class Facts : Prop extends Facts₀ where

variable [Facts]
-- ==== Proof.KernelRun.lean ====
/-
  The idealized kernel's run, with its result named.

  The program is six row-blocked dense layers among stretches of host operations.  Every weakly fair execution ends,
  nothing faulting, with the eight argument arrays as launched and with the result array at what the fold of the
  program's fourteen segments over the launch memory leaves there: a host stretch rewrites the buffers its operations
  write, a layer rewrites its output array with its blocks' write-backs.  What that fold holds at the result is
  computed elsewhere; here it is only read off the last segment's contents, beside the arguments.
-/
import proofs.«173528_j78958678770242_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    segment's contents, and the arguments end as launched. -/
theorem run : θ_run defs (onTc (τ := τ) (main (F := F))) ⟨m, fun _ => 0, ρ⟩ (fun r => ∀ c : Dev nD,
      r.2.mem ((c.tc : Thread nD τ).loc main_v100) = W14 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v100 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.KernelIdeal.Result

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«173528_j78958678770242_2_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.Layers.lean ====
/-
  The network's four kinds of dense layer as functions of whole arrays.

  The encoder takes the node features to relu(x W + b); the first graph layer multiplies by its weight; every later
  graph layer first adds the previous layer's bias to the aggregated messages and clips at zero, then multiplies by
  its weight; the decoder does the same and adds its own bias.  Each is written here once, in the host's operations
  over the full 100000-row arrays, and read at a row r and a column c: a sum over the shared axis of row r of the
  input against column c of the weight.
-/
import proofs.«173528_j78958678770242_2_alg».proof.Proof.Gen.ReferenceIdeal
import proofs.«173528_j78958678770242_2_alg».proof.Proof.LibDense

noncomputable section

namespace Cert.Layers

open Idealize.ShloMosaic Idealize.ShloMosaic.ValueIdx
open Cert.ReferenceIdeal Cert.ReferenceIdeal.Gen

section Defs

variable {F : FTy → Type} [FloatOps F]

/-- Zero everywhere on a [100000, 128] array. -/
abbrev zeros : FVec F S100000x128 .f32 :=
  broadcastInDim S100000x128 ![] bcast_S_S100000x128 (constant (F := F) S_ .f32 0x00000000#32)

/-- A length-128 bias repeated over the 100000 rows. -/
abbrev rows128 (B : FVec F S128 .f32) : FVec F S100000x128 .f32 :=
  broadcastInDim S100000x128 ![0, 1] bcast_S1x128_S100000x128_0_1 (broadcastInDim S1x128 ![1] bcast_S128_S1x128_1 B)

/-- The encoder: relu(x W + b). -/
def encode (X : FVec F S100000x16 .f32) (W : FVec F S16x128 .f32) (B : FVec F S128 .f32) : FVec F S100000x128 .f32 :=
  maximumf (addf (Host.dotGeneral dot_S100000x16_S16x128_S100000x128_1_0_0_1_n_n none X W) (rows128 B)) zeros

/-- The first graph layer's transform: h W. -/
def transform (H : FVec F S100000x128 .f32) (W : FVec F S128x128 .f32) : FVec F S100000x128 .f32 :=
  Host.dotGeneral dot_S100000x128_S128x128_S100000x128_1_0_0_1_n_n none H W

/-- A later graph layer's transform: relu(a + b) W. -/
def layer (A : FVec F S100000x128 .f32) (B : FVec F S128 .f32) (W : FVec F S128x128 .f32) : FVec F S100000x128 .f32 :=
  Host.dotGeneral dot_S100000x128_S128x128_S100000x128_1_0_0_1_n_n none (maximumf (addf A (rows128 B)) zeros) W

/-- The decoder: relu(a + b) W + b'. -/
def decode (A : FVec F S100000x128 .f32) (B : FVec F S128 .f32) (W : FVec F S128x3 .f32) (B2 : FVec F S3 .f32) :
    FVec F S100000x3 .f32 :=
  addf (Host.dotGeneral dot_S100000x128_S128x3_S100000x3_1_0_0_1_n_n none (maximumf (addf A (rows128 B)) zeros) W)
    (broadcastInDim S100000x3 ![0, 1] bcast_S1x3_S100000x3_0_1 (broadcastInDim S1x3 ![1] bcast_S3_S1x3_1 B2))

end Defs

open Cert.Dense (z)

/-- The encoder at row r, column c. -/
theorem encode_apply (X : FVec Ideal S100000x16 .f32) (W : FVec Ideal S16x128 .f32) (B : FVec Ideal S128 .f32)
    (r : Fin 100000) (c : Fin 128) :
    encode X W B (ix2 r c) = max ((∑ k : Fin 16, X (ix2 r k) * W (ix2 k c)) + B (ix1 c)) z :=
  Cert.Dense.hostEncode_apply ⟨rfl, rfl, rfl, rfl, rfl, rfl⟩ X W B _ _ _ r c

/-- The first graph layer's transform at row r, column c. -/
theorem transform_apply (H : FVec Ideal S100000x128 .f32) (W : FVec Ideal S128x128 .f32) (r : Fin 100000) (c : Fin 128) :
    transform H W (ix2 r c) = ∑ k : Fin 128, H (ix2 r k) * W (ix2 k c) :=
  Cert.Dense.hostDot_apply ⟨rfl, rfl, rfl, rfl, rfl, rfl⟩ none .single H W r c

/-- A later graph layer's transform at row r, column c. -/
theorem layer_apply (A : FVec Ideal S100000x128 .f32) (B : FVec Ideal S128 .f32) (W : FVec Ideal S128x128 .f32)
    (r : Fin 100000) (c : Fin 128) :
    layer A B W (ix2 r c) = ∑ k : Fin 128, max (A (ix2 r k) + B (ix1 k)) z * W (ix2 k c) :=
  Cert.Dense.hostLayer_apply ⟨rfl, rfl, rfl, rfl, rfl, rfl⟩ A B W _ _ _ r c

/-- The decoder at row r, column c. -/
theorem decode_apply (A : FVec Ideal S100000x128 .f32) (B : FVec Ideal S128 .f32) (W : FVec Ideal S128x3 .f32)
    (B2 : FVec Ideal S3 .f32) (r : Fin 100000) (c : Fin 3) :
    decode A B W B2 (ix2 r c) = (∑ k : Fin 128, max (A (ix2 r k) + B (ix1 k)) z * W (ix2 k c)) + B2 (ix1 c) :=
  Cert.Dense.hostDecode_apply ⟨rfl, rfl, rfl, rfl, rfl, rfl⟩ A B W B2 _ _ _ _ _ r c

end Cert.Layers

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.Encoder.lean ====
/-
  The encoder region: relu(x W + b), ten blocks of 10000 rows.

  Point t of the grid loads rows 10000 t … 10000 t + 9999 of the node features, the whole weight and the whole bias,
  multiplies, adds the bias to every row, clips at zero and writes the block back to the same rows of the output.  Row r
  of the output therefore is row r of relu(x W + b) computed on whole arrays: the sum over the sixteen input channels
  only reads row r.
-/
import proofs.«173528_j78958678770242_2_alg».proof.Proof.Gen.KernelIdeal.Frame
import proofs.«173528_j78958678770242_2_alg».proof.Proof.Layers
import proofs.«173528_j78958678770242_2_alg».proof.Proof.LibRegionOp

set_option maxRecDepth 16384

noncomputable section

namespace Cert.KernelIdeal.Encoder

open Cert.KernelIdeal Cert.KernelIdeal.Gen
open Idealize.ShloMosaic Idealize.ShloMosaic.TcCoe Idealize.ShloMosaic.ValueIdx
open Idealize.ShloMosaic.Pipeline (Dat)
open Cert.Dense (z)

theorem hz2 : (![0, 0] : Fin 2 → Nat) = fun _ => 0 := funext fun a => by fin_cases a <;> rfl
theorem hz1 : (![0] : Fin 1 → Nat) = fun _ => 0 := funext fun a => by fin_cases a; rfl

/-- What one block of rows computes, at row p of the block and column q. -/
theorem pay_apply (x0 : FVec Ideal S10000x16 .f32) (x1 : FVec Ideal S16x128 .f32) (x2 : FVec Ideal S128 .f32) (p : Fin 10000) (q : Fin 128) :
    k0_pay1 x0 x1 x2 (ix2 p q) = max ((∑ k : Fin 16, x0 (ix2 p k) * x1 (ix2 k q)) + x2 (ix1 q)) z := by
  unfold k0_pay1
  exact Cert.Dense.blockEncode_apply ⟨rfl, rfl, rfl, rfl, rfl, rfl⟩ x0 x1 x2 _ _ p q

/-- The printed index maps over the grid: point t takes rows 10000 t … 10000 t + 9999 of the row-blocked arrays and the
    whole of every other. -/
theorem idx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

variable (V : (c : Dev nD) → (b : Ref sig .tc) → Buf (Elt Ideal) ((c : Thread nD τ).loc b))

/-- Row p of point t's block of the row-blocked input is row 10000 t + p of the array. -/
theorem read_0 (c : Dev nD) (t : Fin cfg0.N) (p : Fin 10000) (k : Fin 16) (P : Fin 100000) (hP : P.val = t.val * 10000 + p.val) :
    (iblk0 V c 0 t : FVec Ideal S10000x16 .f32) (ix2 p k) = (V c main_arg0 : FVec Ideal S100000x16 .f32) (ix2 P k) := by
  have e0 := (idx t).1
  have e1 := (idx t).2.1
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * p.val = P.val; rw [e0, hP]; omega
  | ⟨1, _⟩ => show win0_0.index t (1 : Fin 2) * 16 + 1 * k.val = k.val; rw [e1]; omega

/-- Every point's block of this input is the whole array. -/
theorem read_1 (c : Dev nD) (t : Fin cfg0.N) (k : Fin 16) (q : Fin 128) :
    (iblk0 V c 1 t : FVec Ideal S16x128 .f32) (ix2 k q) = (V c main_arg2 : FVec Ideal S16x128 .f32) (ix2 k q) := by
  have e0 := (idx t).2.2.1
  have e1 := (idx t).2.2.2.1
  unfold iblk0
  rw [View.read_apply]
  show V c main_arg2 _ = V c main_arg2 _
  refine congrArg (V c main_arg2) (funext fun a => Fin.ext ?_)
  match a with
  | ⟨0, _⟩ => show win0_1.index t (0 : Fin 2) * 16 + 1 * k.val = k.val; rw [e0]; omega
  | ⟨1, _⟩ => show win0_1.index t (1 : Fin 2) * 128 + 1 * q.val = q.val; rw [e1]; omega

/-- Every point's block of this input is the whole vector. -/
theorem read_2 (c : Dev nD) (t : Fin cfg0.N) (q : Fin 128) :
    (iblk0 V c 2 t : FVec Ideal S128 .f32) (ix1 q) = (V c main_arg3 : FVec Ideal S128 .f32) (ix1 q) := by
  have e0 := (idx t).2.2.2.2.1
  unfold iblk0
  rw [View.read_apply]
  show V c main_arg3 _ = V c main_arg3 _
  refine congrArg (V c main_arg3) (funext fun a => Fin.ext ?_)
  match a with
  | ⟨0, _⟩ => show win0_2.index t (0 : Fin 1) * 128 + 1 * q.val = q.val; rw [e0]; omega

/-- WHAT POINT t WRITES BACK is block t of the layer's function of the arrays as the region finds them. -/
theorem flushed (c : Dev nD) (t : Fin cfg0.N) :
    (dat0 (F := Ideal) V c).flushed 3 t
      = ((cfg0.win 3).blk t).view.read (Elt Ideal) (Cert.Layers.encode (F := Ideal) (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S10000x16) hz2, View.ld_unit_zero (S := S16x128) hz2, View.ld_unit_zero (S := S128) hz1]
  funext j
  obtain ⟨p, q, rfl⟩ : ∃ (p : Fin 10000) (q : Fin 128), j = ix2 p q := ⟨j 0, j 1, eq_ix2 j⟩
  have ht : t.val < 10 := by have h := t.isLt; have hN : cfg0.N = 10 := N_0; omega
  obtain ⟨P, hP⟩ : ∃ P : Fin 100000, P.val = t.val * 10000 + p.val := ⟨⟨t.val * 10000 + p.val, by omega⟩, rfl⟩
  have e5 : win0_3.index t (0 : Fin 2) = t.val := (idx t).2.2.2.2.2.1
  have e6 : win0_3.index t (1 : Fin 2) = 0 := (idx t).2.2.2.2.2.2
  have hemb : ((cfg0.win 3).blk t).view.emb (ix2 p q) = ix2 P q :=
    funext fun a => Fin.ext (by
      match a with
      | ⟨0, _⟩ => show win0_3.index t (0 : Fin 2) * 10000 + 1 * p.val = P.val; rw [e5, hP]; omega
      | ⟨1, _⟩ => show win0_3.index t (1 : Fin 2) * 128 + 1 * q.val = q.val; rw [e6]; omega)
  rw [View.read_apply]
  show k0_pay1 _ _ _ (ix2 p q) = Cert.Layers.encode (F := Ideal) _ _ _ (((cfg0.win 3).blk t).view.emb (ix2 p q))
  rw [hemb, Cert.Layers.encode_apply]
  refine (pay_apply _ _ _ p q).trans ?_
  refine congrArg (fun s => max s z) (congrArg₂ (· + ·) (Finset.sum_congr rfl fun k _ => ?_) (read_2 V c t q))
  rw [read_0 V c t p k P hP, read_1 V c t k q]

/-- An index of the output array is in point t's block iff its row is among the block's rows. -/
theorem mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v31).slice (win0_3.rect t)).set ↔ _
  rw [View.set_slice_whole, Rect.mem_set_unit]
  exact Iff.rfl

/-- THE OUTPUT ARRAY after the region: the layer's function of the arrays as the region finds them (row r is in the block
    of point r / 10000). -/
theorem value (c : Dev nD) :
    (dat0 (F := Ideal) V c).arrAt 3 cfg0.N = Cert.Layers.encode (F := Ideal) (V c main_arg0) (V c main_arg2) (V c main_arg3) :=
  (dat0 V c).arrAt_eq_of_cover 3 _ (fun t _ => flushed V c t) fun i => by
    have hi0 : (i 0).val < 100000 := (i 0).isLt
    have hi1 : (i 1).val < 128 := (i 1).isLt
    have hN : cfg0.N = 10 := N_0
    refine ⟨⟨(i 0).val / 10000, by rw [hN]; omega⟩, flush0_3 _, ?_⟩
    rw [mem_blk]
    have e5 := (idx ⟨(i 0).val / 10000, by rw [hN]; omega⟩).2.2.2.2.2.1
    have e6 := (idx ⟨(i 0).val / 10000, by rw [hN]; omega⟩).2.2.2.2.2.2
    intro a
    match a with
    | ⟨0, _⟩ =>
      show win0_3.index _ (0 : Fin 2) * 10000 ≤ (i 0).val ∧ (i 0).val < win0_3.index _ (0 : Fin 2) * 10000 + 10000
      rw [e5]; show (i 0).val / 10000 * 10000 ≤ (i 0).val ∧ (i 0).val < (i 0).val / 10000 * 10000 + 10000; omega
    | ⟨1, _⟩ =>
      show win0_3.index _ (1 : Fin 2) * 128 ≤ (i 1).val ∧ (i 1).val < win0_3.index _ (1 : Fin 2) * 128 + 128
      rw [e6]; omega

/-! ## The region as one operation of the program's fold -/

/-- The layer as a host operation from the region's input arrays to its output array. -/
abbrev op : HloOp τ sig (Elt Ideal) :=
  StableHlo.ternary main_arg0 main_arg2 main_arg3 main_v31 (Cert.Layers.encode (F := Ideal))

variable (m : (ℓ : Loc nD τ sig) → Buf (Elt Ideal) ℓ) (ρ : Dev nD → PrngReg)

/-- What the region leaves is what that operation leaves: the output array at the layer's function of the inputs, every
    other buffer as the region found it. -/
theorem exit_eq (c : Dev nD) : W4 m ρ c = op.result (W3 m ρ c) := by
  unfold W4
  refine Cert.RegionOp.withArrays_eq_result spec0 launch0.win.arr_inj c (W3 m ρ c) _ op 3 rfl ?_ ?_
  · refine (value (V3 m ρ) c).trans ?_
    exact (StableHlo.ternary_result main_arg0 main_arg2 main_arg3 main_v31 (Cert.Layers.encode (F := Ideal)) _ _ _ _ (W3 m ρ c)).symm
  · intro w hw
    match w, hw with
    | 0, _ => exact ((dat0 (V3 m ρ) c).arrAt_in 0 rfl _).trans (A_eq0 (V3 m ρ) c 0)
    | 1, _ => exact ((dat0 (V3 m ρ) c).arrAt_in 1 rfl _).trans (A_eq0 (V3 m ρ) c 1)
    | 2, _ => exact ((dat0 (V3 m ρ) c).arrAt_in 2 rfl _).trans (A_eq0 (V3 m ρ) c 2)
    | 3, h => exact absurd rfl h

end Cert.KernelIdeal.Encoder

end
-- ==== Proof.Transform.lean ====
/-
  The first graph layer's transform: h W, ten blocks of 10000 rows.

  Point t of the grid loads rows 10000 t … 10000 t + 9999 of the encoder's output and the whole 128 × 128 weight, multiplies,
  and writes the block back to the same rows of the output.  Row r of the output is row r of h W on whole arrays: the sum over
  the 128 hidden channels only reads row r.
-/
import proofs.«173528_j78958678770242_2_alg».proof.Proof.Gen.KernelIdeal.Frame
import proofs.«173528_j78958678770242_2_alg».proof.Proof.Layers
import proofs.«173528_j78958678770242_2_alg».proof.Proof.LibRegionOp

set_option maxRecDepth 16384

noncomputable section

namespace Cert.KernelIdeal.Transform

open Cert.KernelIdeal Cert.KernelIdeal.Gen
open Idealize.ShloMosaic Idealize.ShloMosaic.TcCoe Idealize.ShloMosaic.ValueIdx
open Idealize.ShloMosaic.Pipeline (Dat)
open Cert.Dense (z)

theorem hz2 : (![0, 0] : Fin 2 → Nat) = fun _ => 0 := funext fun a => by fin_cases a <;> rfl
theorem hz1 : (![0] : Fin 1 → Nat) = fun _ => 0 := funext fun a => by fin_cases a; rfl

/-- What one block of rows computes, at row p of the block and column q. -/
theorem pay_apply (x0 : FVec Ideal S10000x128 .f32) (x1 : FVec Ideal S128x128 .f32) (p : Fin 10000) (q : Fin 128) :
    k1_pay1 x0 x1 (ix2 p q) = ∑ k : Fin 128, x0 (ix2 p k) * x1 (ix2 k q) := by
  unfold k1_pay1
  simp only [shapeCast_self]
  exact Cert.RowOps.matmul_zero_apply ⟨rfl, rfl, rfl, rfl, rfl, rfl⟩ none x0 x1 p q

/-- The printed index maps over the grid: point t takes rows 10000 t … 10000 t + 9999 of the row-blocked arrays and the
    whole of every other. -/
theorem idx : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

variable (V : (c : Dev nD) → (b : Ref sig .tc) → Buf (Elt Ideal) ((c : Thread nD τ).loc b))

/-- Row p of point t's block of the row-blocked input is row 10000 t + p of the array. -/
theorem read_0 (c : Dev nD) (t : Fin cfg1.N) (p : Fin 10000) (k : Fin 128) (P : Fin 100000) (hP : P.val = t.val * 10000 + p.val) :
    (iblk1 V c 0 t : FVec Ideal S10000x128 .f32) (ix2 p k) = (V c main_v31 : FVec Ideal S100000x128 .f32) (ix2 P k) := by
  have e0 := (idx t).1
  have e1 := (idx t).2.1
  unfold iblk1
  rw [View.read_apply]
  show V c main_v31 _ = V c main_v31 _
  refine congrArg (V c main_v31) (funext fun a => Fin.ext ?_)
  match a with
  | ⟨0, _⟩ => show win1_0.index t (0 : Fin 2) * 10000 + 1 * p.val = P.val; rw [e0, hP]; omega
  | ⟨1, _⟩ => show win1_0.index t (1 : Fin 2) * 128 + 1 * k.val = k.val; rw [e1]; omega

/-- Every point's block of this input is the whole array. -/
theorem read_1 (c : Dev nD) (t : Fin cfg1.N) (k : Fin 128) (q : Fin 128) :
    (iblk1 V c 1 t : FVec Ideal S128x128 .f32) (ix2 k q) = (V c main_v33 : FVec Ideal S128x128 .f32) (ix2 k q) := by
  have e0 := (idx t).2.2.1
  have e1 := (idx t).2.2.2.1
  unfold iblk1
  rw [View.read_apply]
  show V c main_v33 _ = V c main_v33 _
  refine congrArg (V c main_v33) (funext fun a => Fin.ext ?_)
  match a with
  | ⟨0, _⟩ => show win1_1.index t (0 : Fin 2) * 128 + 1 * k.val = k.val; rw [e0]; omega
  | ⟨1, _⟩ => show win1_1.index t (1 : Fin 2) * 128 + 1 * q.val = q.val; rw [e1]; omega

/-- WHAT POINT t WRITES BACK is block t of the layer's function of the arrays as the region finds them. -/
theorem flushed (c : Dev nD) (t : Fin cfg1.N) :
    (dat1 (F := Ideal) V c).flushed 2 t
      = ((cfg1.win 2).blk t).view.read (Elt Ideal) (Cert.Layers.transform (F := Ideal) (V c main_v31) (V c main_v33)) := by
  show (cfg1.win 2).cut (grid1.coords t) ((dat1 V c).after 2 t) = _
  rw [after1_2]
  unfold out1_2
  rw [View.canon_unit_zero hz2]
  simp only [View.ld_unit_zero (S := S10000x128) hz2, View.ld_unit_zero (S := S128x128) hz2]
  funext j
  obtain ⟨p, q, rfl⟩ : ∃ (p : Fin 10000) (q : Fin 128), j = ix2 p q := ⟨j 0, j 1, eq_ix2 j⟩
  have ht : t.val < 10 := by have h := t.isLt; have hN : cfg1.N = 10 := N_1; omega
  obtain ⟨P, hP⟩ : ∃ P : Fin 100000, P.val = t.val * 10000 + p.val := ⟨⟨t.val * 10000 + p.val, by omega⟩, rfl⟩
  have e5 : win1_2.index t (0 : Fin 2) = t.val := (idx t).2.2.2.2.1
  have e6 : win1_2.index t (1 : Fin 2) = 0 := (idx t).2.2.2.2.2
  have hemb : ((cfg1.win 2).blk t).view.emb (ix2 p q) = ix2 P q :=
    funext fun a => Fin.ext (by
      match a with
      | ⟨0, _⟩ => show win1_2.index t (0 : Fin 2) * 10000 + 1 * p.val = P.val; rw [e5, hP]; omega
      | ⟨1, _⟩ => show win1_2.index t (1 : Fin 2) * 128 + 1 * q.val = q.val; rw [e6]; omega)
  rw [View.read_apply]
  show k1_pay1 _ _ (ix2 p q) = Cert.Layers.transform (F := Ideal) _ _ (((cfg1.win 2).blk t).view.emb (ix2 p q))
  rw [hemb, Cert.Layers.transform_apply]
  refine (pay_apply _ _ p q).trans ?_
  refine Finset.sum_congr rfl fun k _ => ?_
  rw [read_0 V c t p k P hP, read_1 V c t k q]

/-- An index of the output array is in point t's block iff its row is among the block's rows. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v34).slice (win1_2.rect t)).set ↔ _
  rw [View.set_slice_whole, Rect.mem_set_unit]
  exact Iff.rfl

/-- THE OUTPUT ARRAY after the region: the layer's function of the arrays as the region finds them (row r is in the block
    of point r / 10000). -/
theorem value (c : Dev nD) :
    (dat1 (F := Ideal) V c).arrAt 2 cfg1.N = Cert.Layers.transform (F := Ideal) (V c main_v31) (V c main_v33) :=
  (dat1 V c).arrAt_eq_of_cover 2 _ (fun t _ => flushed V c t) fun i => by
    have hi0 : (i 0).val < 100000 := (i 0).isLt
    have hi1 : (i 1).val < 128 := (i 1).isLt
    have hN : cfg1.N = 10 := N_1
    refine ⟨⟨(i 0).val / 10000, by rw [hN]; omega⟩, flush1_2 _, ?_⟩
    rw [mem_blk]
    have e5 := (idx ⟨(i 0).val / 10000, by rw [hN]; omega⟩).2.2.2.2.1
    have e6 := (idx ⟨(i 0).val / 10000, by rw [hN]; omega⟩).2.2.2.2.2
    intro a
    match a with
    | ⟨0, _⟩ =>
      show win1_2.index _ (0 : Fin 2) * 10000 ≤ (i 0).val ∧ (i 0).val < win1_2.index _ (0 : Fin 2) * 10000 + 10000
      rw [e5]; show (i 0).val / 10000 * 10000 ≤ (i 0).val ∧ (i 0).val < (i 0).val / 10000 * 10000 + 10000; omega
    | ⟨1, _⟩ =>
      show win1_2.index _ (1 : Fin 2) * 128 ≤ (i 1).val ∧ (i 1).val < win1_2.index _ (1 : Fin 2) * 128 + 128
      rw [e6]; omega

/-! ## The region as one operation of the program's fold -/

/-- The layer as a host operation from the region's input arrays to its output array. -/
abbrev op : HloOp τ sig (Elt Ideal) :=
  StableHlo.binary main_v31 main_v33 main_v34 (Cert.Layers.transform (F := Ideal))

variable (m : (ℓ : Loc nD τ sig) → Buf (Elt Ideal) ℓ) (ρ : Dev nD → PrngReg)

/-- What the region leaves is what that operation leaves: the output array at the layer's function of the inputs, every
    other buffer as the region found it. -/
theorem exit_eq (c : Dev nD) : W6 m ρ c = op.result (W5 m ρ c) := by
  unfold W6
  refine Cert.RegionOp.withArrays_eq_result spec1 launch1.win.arr_inj c (W5 m ρ c) _ op 2 rfl ?_ ?_
  · refine (value (V5 m ρ) c).trans ?_
    exact (StableHlo.binary_result main_v31 main_v33 main_v34 (Cert.Layers.transform (F := Ideal)) _ _ _ (W5 m ρ c)).symm
  · intro w hw
    match w, hw with
    | 0, _ => exact ((dat1 (V5 m ρ) c).arrAt_in 0 rfl _).trans (A_eq1 (V5 m ρ) c 0)
    | 1, _ => exact ((dat1 (V5 m ρ) c).arrAt_in 1 rfl _).trans (A_eq1 (V5 m ρ) c 1)
    | 2, h => exact absurd rfl h

end Cert.KernelIdeal.Transform

end
-- ==== Proof.Layer2.lean ====
/-
  The second graph layer's transform: relu(a + b) W, ten blocks of 10000 rows.

  Point t of the grid loads rows 10000 t … 10000 t + 9999 of the aggregated messages, the whole bias of the previous layer and
  the whole 128 × 128 weight; it adds the bias to every row, clips at zero, multiplies, and writes the block back to the same
  rows of the output.  Row r of the output is row r of relu(a + b) W on whole arrays: bias, clip and sum only read row r.
-/
import proofs.«173528_j78958678770242_2_alg».proof.Proof.Gen.KernelIdeal.Frame
import proofs.«173528_j78958678770242_2_alg».proof.Proof.Layers
import proofs.«173528_j78958678770242_2_alg».proof.Proof.LibRegionOp

set_option maxRecDepth 16384

noncomputable section

namespace Cert.KernelIdeal.Layer2

open Cert.KernelIdeal Cert.KernelIdeal.Gen
open Idealize.ShloMosaic Idealize.ShloMosaic.TcCoe Idealize.ShloMosaic.ValueIdx
open Idealize.ShloMosaic.Pipeline (Dat)
open Cert.Dense (z)

theorem hz2 : (![0, 0] : Fin 2 → Nat) = fun _ => 0 := funext fun a => by fin_cases a <;> rfl
theorem hz1 : (![0] : Fin 1 → Nat) = fun _ => 0 := funext fun a => by fin_cases a; rfl

/-- What one block of rows computes, at row p of the block and column q. -/
theorem pay_apply (x0 : FVec Ideal S10000x128 .f32) (x1 : FVec Ideal S128 .f32) (x2 : FVec Ideal S128x128 .f32) (p : Fin 10000) (q : Fin 128) :
    k2_pay1 x0 x1 x2 (ix2 p q) = ∑ k : Fin 128, max (x0 (ix2 p k) + x1 (ix1 k)) z * x2 (ix2 k q) := by
  unfold k2_pay1
  simp only [shapeCast_self]
  exact Cert.Dense.blockLayer_apply ⟨rfl, rfl, rfl, rfl, rfl, rfl⟩ x0 x1 x2 _ _ p q

/-- The printed index maps over the grid: point t takes rows 10000 t … 10000 t + 9999 of the row-blocked arrays and the
    whole of every other. -/
theorem idx : ∀ t : Fin cfg2.N, win2_0.index t (0 : Fin 2) = t.val
    ∧ win2_0.index t (1 : Fin 2) = 0
    ∧ win2_1.index t (0 : Fin 1) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

variable (V : (c : Dev nD) → (b : Ref sig .tc) → Buf (Elt Ideal) ((c : Thread nD τ).loc b))

/-- Row p of point t's block of the row-blocked input is row 10000 t + p of the array. -/
theorem read_0 (c : Dev nD) (t : Fin cfg2.N) (p : Fin 10000) (k : Fin 128) (P : Fin 100000) (hP : P.val = t.val * 10000 + p.val) :
    (iblk2 V c 0 t : FVec Ideal S10000x128 .f32) (ix2 p k) = (V c main_v46 : FVec Ideal S100000x128 .f32) (ix2 P k) := by
  have e0 := (idx t).1
  have e1 := (idx t).2.1
  unfold iblk2
  rw [View.read_apply]
  show V c main_v46 _ = V c main_v46 _
  refine congrArg (V c main_v46) (funext fun a => Fin.ext ?_)
  match a with
  | ⟨0, _⟩ => show win2_0.index t (0 : Fin 2) * 10000 + 1 * p.val = P.val; rw [e0, hP]; omega
  | ⟨1, _⟩ => show win2_0.index t (1 : Fin 2) * 128 + 1 * k.val = k.val; rw [e1]; omega

/-- Every point's block of this input is the whole vector. -/
theorem read_1 (c : Dev nD) (t : Fin cfg2.N) (q : Fin 128) :
    (iblk2 V c 1 t : FVec Ideal S128 .f32) (ix1 q) = (V c main_v48 : FVec Ideal S128 .f32) (ix1 q) := by
  have e0 := (idx t).2.2.1
  unfold iblk2
  rw [View.read_apply]
  show V c main_v48 _ = V c main_v48 _
  refine congrArg (V c main_v48) (funext fun a => Fin.ext ?_)
  match a with
  | ⟨0, _⟩ => show win2_1.index t (0 : Fin 1) * 128 + 1 * q.val = q.val; rw [e0]; omega

/-- Every point's block of this input is the whole array. -/
theorem read_2 (c : Dev nD) (t : Fin cfg2.N) (k : Fin 128) (q : Fin 128) :
    (iblk2 V c 2 t : FVec Ideal S128x128 .f32) (ix2 k q) = (V c main_v50 : FVec Ideal S128x128 .f32) (ix2 k q) := by
  have e0 := (idx t).2.2.2.1
  have e1 := (idx t).2.2.2.2.1
  unfold iblk2
  rw [View.read_apply]
  show V c main_v50 _ = V c main_v50 _
  refine congrArg (V c main_v50) (funext fun a => Fin.ext ?_)
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- WHAT POINT t WRITES BACK is block t of the layer's function of the arrays as the region finds them. -/
theorem flushed (c : Dev nD) (t : Fin cfg2.N) :
    (dat2 (F := Ideal) V c).flushed 3 t
      = ((cfg2.win 3).blk t).view.read (Elt Ideal) (Cert.Layers.layer (F := Ideal) (V c main_v46) (V c main_v48) (V c main_v50)) := by
  show (cfg2.win 3).cut (grid2.coords t) ((dat2 V c).after 3 t) = _
  rw [after2_3]
  unfold out2_3
  rw [View.canon_unit_zero hz2]
  simp only [View.ld_unit_zero (S := S10000x128) hz2, View.ld_unit_zero (S := S128) hz1, View.ld_unit_zero (S := S128x128) hz2]
  funext j
  obtain ⟨p, q, rfl⟩ : ∃ (p : Fin 10000) (q : Fin 128), j = ix2 p q := ⟨j 0, j 1, eq_ix2 j⟩
  have ht : t.val < 10 := by have h := t.isLt; have hN : cfg2.N = 10 := N_2; omega
  obtain ⟨P, hP⟩ : ∃ P : Fin 100000, P.val = t.val * 10000 + p.val := ⟨⟨t.val * 10000 + p.val, by omega⟩, rfl⟩
  have e5 : win2_3.index t (0 : Fin 2) = t.val := (idx t).2.2.2.2.2.1
  have e6 : win2_3.index t (1 : Fin 2) = 0 := (idx t).2.2.2.2.2.2
  have hemb : ((cfg2.win 3).blk t).view.emb (ix2 p q) = ix2 P q :=
    funext fun a => Fin.ext (by
      match a with
      | ⟨0, _⟩ => show win2_3.index t (0 : Fin 2) * 10000 + 1 * p.val = P.val; rw [e5, hP]; omega
      | ⟨1, _⟩ => show win2_3.index t (1 : Fin 2) * 128 + 1 * q.val = q.val; rw [e6]; omega)
  rw [View.read_apply]
  show k2_pay1 _ _ _ (ix2 p q) = Cert.Layers.layer (F := Ideal) _ _ _ (((cfg2.win 3).blk t).view.emb (ix2 p q))
  rw [hemb, Cert.Layers.layer_apply]
  refine (pay_apply _ _ _ p q).trans ?_
  refine Finset.sum_congr rfl fun k _ => ?_
  rw [read_0 V c t p k P hP, read_1 V c t k, read_2 V c t k q]

/-- An index of the output array is in point t's block iff its row is among the block's rows. -/
theorem mem_blk (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v51).slice (win2_3.rect t)).set ↔ _
  rw [View.set_slice_whole, Rect.mem_set_unit]
  exact Iff.rfl

/-- THE OUTPUT ARRAY after the region: the layer's function of the arrays as the region finds them (row r is in the block
    of point r / 10000). -/
theorem value (c : Dev nD) :
    (dat2 (F := Ideal) V c).arrAt 3 cfg2.N = Cert.Layers.layer (F := Ideal) (V c main_v46) (V c main_v48) (V c main_v50) :=
  (dat2 V c).arrAt_eq_of_cover 3 _ (fun t _ => flushed V c t) fun i => by
    have hi0 : (i 0).val < 100000 := (i 0).isLt
    have hi1 : (i 1).val < 128 := (i 1).isLt
    have hN : cfg2.N = 10 := N_2
    refine ⟨⟨(i 0).val / 10000, by rw [hN]; omega⟩, flush2_3 _, ?_⟩
    rw [mem_blk]
    have e5 := (idx ⟨(i 0).val / 10000, by rw [hN]; omega⟩).2.2.2.2.2.1
    have e6 := (idx ⟨(i 0).val / 10000, by rw [hN]; omega⟩).2.2.2.2.2.2
    intro a
    match a with
    | ⟨0, _⟩ =>
      show win2_3.index _ (0 : Fin 2) * 10000 ≤ (i 0).val ∧ (i 0).val < win2_3.index _ (0 : Fin 2) * 10000 + 10000
      rw [e5]; show (i 0).val / 10000 * 10000 ≤ (i 0).val ∧ (i 0).val < (i 0).val / 10000 * 10000 + 10000; omega
    | ⟨1, _⟩ =>
      show win2_3.index _ (1 : Fin 2) * 128 ≤ (i 1).val ∧ (i 1).val < win2_3.index _ (1 : Fin 2) * 128 + 128
      rw [e6]; omega

/-! ## The region as one operation of the program's fold -/

/-- The layer as a host operation from the region's input arrays to its output array. -/
abbrev op : HloOp τ sig (Elt Ideal) :=
  StableHlo.ternary main_v46 main_v48 main_v50 main_v51 (Cert.Layers.layer (F := Ideal))

variable (m : (ℓ : Loc nD τ sig) → Buf (Elt Ideal) ℓ) (ρ : Dev nD → PrngReg)

/-- What the region leaves is what that operation leaves: the output array at the layer's function of the inputs, every
    other buffer as the region found it. -/
theorem exit_eq (c : Dev nD) : W8 m ρ c = op.result (W7 m ρ c) := by
  unfold W8
  refine Cert.RegionOp.withArrays_eq_result spec2 launch2.win.arr_inj c (W7 m ρ c) _ op 3 rfl ?_ ?_
  · refine (value (V7 m ρ) c).trans ?_
    exact (StableHlo.ternary_result main_v46 main_v48 main_v50 main_v51 (Cert.Layers.layer (F := Ideal)) _ _ _ _ (W7 m ρ c)).symm
  · intro w hw
    match w, hw with
    | 0, _ => exact ((dat2 (V7 m ρ) c).arrAt_in 0 rfl _).trans (A_eq2 (V7 m ρ) c 0)
    | 1, _ => exact ((dat2 (V7 m ρ) c).arrAt_in 1 rfl _).trans (A_eq2 (V7 m ρ) c 1)
    | 2, _ => exact ((dat2 (V7 m ρ) c).arrAt_in 2 rfl _).trans (A_eq2 (V7 m ρ) c 2)
    | 3, h => exact absurd rfl h

end Cert.KernelIdeal.Layer2

end
-- ==== Proof.Layer3.lean ====
/-
  The third graph layer's transform: relu(a + b) W, ten blocks of 10000 rows.

  Point t of the grid loads rows 10000 t … 10000 t + 9999 of the aggregated messages, the whole bias of the previous layer and
  the whole 128 × 128 weight; it adds the bias to every row, clips at zero, multiplies, and writes the block back to the same
  rows of the output.  Row r of the output is row r of relu(a + b) W on whole arrays: bias, clip and sum only read row r.
-/
import proofs.«173528_j78958678770242_2_alg».proof.Proof.Gen.KernelIdeal.Frame
import proofs.«173528_j78958678770242_2_alg».proof.Proof.Layers
import proofs.«173528_j78958678770242_2_alg».proof.Proof.LibRegionOp

set_option maxRecDepth 16384

noncomputable section

namespace Cert.KernelIdeal.Layer3

open Cert.KernelIdeal Cert.KernelIdeal.Gen
open Idealize.ShloMosaic Idealize.ShloMosaic.TcCoe Idealize.ShloMosaic.ValueIdx
open Idealize.ShloMosaic.Pipeline (Dat)
open Cert.Dense (z)

theorem hz2 : (![0, 0] : Fin 2 → Nat) = fun _ => 0 := funext fun a => by fin_cases a <;> rfl
theorem hz1 : (![0] : Fin 1 → Nat) = fun _ => 0 := funext fun a => by fin_cases a; rfl

/-- What one block of rows computes, at row p of the block and column q. -/
theorem pay_apply (x0 : FVec Ideal S10000x128 .f32) (x1 : FVec Ideal S128 .f32) (x2 : FVec Ideal S128x128 .f32) (p : Fin 10000) (q : Fin 128) :
    k3_pay1 x0 x1 x2 (ix2 p q) = ∑ k : Fin 128, max (x0 (ix2 p k) + x1 (ix1 k)) z * x2 (ix2 k q) := by
  unfold k3_pay1
  simp only [shapeCast_self]
  exact Cert.Dense.blockLayer_apply ⟨rfl, rfl, rfl, rfl, rfl, rfl⟩ x0 x1 x2 _ _ p q

/-- The printed index maps over the grid: point t takes rows 10000 t … 10000 t + 9999 of the row-blocked arrays and the
    whole of every other. -/
theorem idx : ∀ t : Fin cfg3.N, win3_0.index t (0 : Fin 2) = t.val
    ∧ win3_0.index t (1 : Fin 2) = 0
    ∧ win3_1.index t (0 : Fin 1) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

variable (V : (c : Dev nD) → (b : Ref sig .tc) → Buf (Elt Ideal) ((c : Thread nD τ).loc b))

/-- Row p of point t's block of the row-blocked input is row 10000 t + p of the array. -/
theorem read_0 (c : Dev nD) (t : Fin cfg3.N) (p : Fin 10000) (k : Fin 128) (P : Fin 100000) (hP : P.val = t.val * 10000 + p.val) :
    (iblk3 V c 0 t : FVec Ideal S10000x128 .f32) (ix2 p k) = (V c main_v63 : FVec Ideal S100000x128 .f32) (ix2 P k) := by
  have e0 := (idx t).1
  have e1 := (idx t).2.1
  unfold iblk3
  rw [View.read_apply]
  show V c main_v63 _ = V c main_v63 _
  refine congrArg (V c main_v63) (funext fun a => Fin.ext ?_)
  match a with
  | ⟨0, _⟩ => show win3_0.index t (0 : Fin 2) * 10000 + 1 * p.val = P.val; rw [e0, hP]; omega
  | ⟨1, _⟩ => show win3_0.index t (1 : Fin 2) * 128 + 1 * k.val = k.val; rw [e1]; omega

/-- Every point's block of this input is the whole vector. -/
theorem read_1 (c : Dev nD) (t : Fin cfg3.N) (q : Fin 128) :
    (iblk3 V c 1 t : FVec Ideal S128 .f32) (ix1 q) = (V c main_v65 : FVec Ideal S128 .f32) (ix1 q) := by
  have e0 := (idx t).2.2.1
  unfold iblk3
  rw [View.read_apply]
  show V c main_v65 _ = V c main_v65 _
  refine congrArg (V c main_v65) (funext fun a => Fin.ext ?_)
  match a with
  | ⟨0, _⟩ => show win3_1.index t (0 : Fin 1) * 128 + 1 * q.val = q.val; rw [e0]; omega

/-- Every point's block of this input is the whole array. -/
theorem read_2 (c : Dev nD) (t : Fin cfg3.N) (k : Fin 128) (q : Fin 128) :
    (iblk3 V c 2 t : FVec Ideal S128x128 .f32) (ix2 k q) = (V c main_v67 : FVec Ideal S128x128 .f32) (ix2 k q) := by
  have e0 := (idx t).2.2.2.1
  have e1 := (idx t).2.2.2.2.1
  unfold iblk3
  rw [View.read_apply]
  show V c main_v67 _ = V c main_v67 _
  refine congrArg (V c main_v67) (funext fun a => Fin.ext ?_)
  match a with
  | ⟨0, _⟩ => show win3_2.index t (0 : Fin 2) * 128 + 1 * k.val = k.val; rw [e0]; omega
  | ⟨1, _⟩ => show win3_2.index t (1 : Fin 2) * 128 + 1 * q.val = q.val; rw [e1]; omega

/-- WHAT POINT t WRITES BACK is block t of the layer's function of the arrays as the region finds them. -/
theorem flushed (c : Dev nD) (t : Fin cfg3.N) :
    (dat3 (F := Ideal) V c).flushed 3 t
      = ((cfg3.win 3).blk t).view.read (Elt Ideal) (Cert.Layers.layer (F := Ideal) (V c main_v63) (V c main_v65) (V c main_v67)) := by
  show (cfg3.win 3).cut (grid3.coords t) ((dat3 V c).after 3 t) = _
  rw [after3_3]
  unfold out3_3
  rw [View.canon_unit_zero hz2]
  simp only [View.ld_unit_zero (S := S10000x128) hz2, View.ld_unit_zero (S := S128) hz1, View.ld_unit_zero (S := S128x128) hz2]
  funext j
  obtain ⟨p, q, rfl⟩ : ∃ (p : Fin 10000) (q : Fin 128), j = ix2 p q := ⟨j 0, j 1, eq_ix2 j⟩
  have ht : t.val < 10 := by have h := t.isLt; have hN : cfg3.N = 10 := N_3; omega
  obtain ⟨P, hP⟩ : ∃ P : Fin 100000, P.val = t.val * 10000 + p.val := ⟨⟨t.val * 10000 + p.val, by omega⟩, rfl⟩
  have e5 : win3_3.index t (0 : Fin 2) = t.val := (idx t).2.2.2.2.2.1
  have e6 : win3_3.index t (1 : Fin 2) = 0 := (idx t).2.2.2.2.2.2
  have hemb : ((cfg3.win 3).blk t).view.emb (ix2 p q) = ix2 P q :=
    funext fun a => Fin.ext (by
      match a with
      | ⟨0, _⟩ => show win3_3.index t (0 : Fin 2) * 10000 + 1 * p.val = P.val; rw [e5, hP]; omega
      | ⟨1, _⟩ => show win3_3.index t (1 : Fin 2) * 128 + 1 * q.val = q.val; rw [e6]; omega)
  rw [View.read_apply]
  show k3_pay1 _ _ _ (ix2 p q) = Cert.Layers.layer (F := Ideal) _ _ _ (((cfg3.win 3).blk t).view.emb (ix2 p q))
  rw [hemb, Cert.Layers.layer_apply]
  refine (pay_apply _ _ _ p q).trans ?_
  refine Finset.sum_congr rfl fun k _ => ?_
  rw [read_0 V c t p k P hP, read_1 V c t k, read_2 V c t k q]

/-- An index of the output array is in point t's block iff its row is among the block's rows. -/
theorem mem_blk (t : Fin cfg3.N) (i : S100000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v68).slice (win3_3.rect t)).set ↔ _
  rw [View.set_slice_whole, Rect.mem_set_unit]
  exact Iff.rfl

/-- THE OUTPUT ARRAY after the region: the layer's function of the arrays as the region finds them (row r is in the block
    of point r / 10000). -/
theorem value (c : Dev nD) :
    (dat3 (F := Ideal) V c).arrAt 3 cfg3.N = Cert.Layers.layer (F := Ideal) (V c main_v63) (V c main_v65) (V c main_v67) :=
  (dat3 V c).arrAt_eq_of_cover 3 _ (fun t _ => flushed V c t) fun i => by
    have hi0 : (i 0).val < 100000 := (i 0).isLt
    have hi1 : (i 1).val < 128 := (i 1).isLt
    have hN : cfg3.N = 10 := N_3
    refine ⟨⟨(i 0).val / 10000, by rw [hN]; omega⟩, flush3_3 _, ?_⟩
    rw [mem_blk]
    have e5 := (idx ⟨(i 0).val / 10000, by rw [hN]; omega⟩).2.2.2.2.2.1
    have e6 := (idx ⟨(i 0).val / 10000, by rw [hN]; omega⟩).2.2.2.2.2.2
    intro a
    match a with
    | ⟨0, _⟩ =>
      show win3_3.index _ (0 : Fin 2) * 10000 ≤ (i 0).val ∧ (i 0).val < win3_3.index _ (0 : Fin 2) * 10000 + 10000
      rw [e5]; show (i 0).val / 10000 * 10000 ≤ (i 0).val ∧ (i 0).val < (i 0).val / 10000 * 10000 + 10000; omega
    | ⟨1, _⟩ =>
      show win3_3.index _ (1 : Fin 2) * 128 ≤ (i 1).val ∧ (i 1).val < win3_3.index _ (1 : Fin 2) * 128 + 128
      rw [e6]; omega

/-! ## The region as one operation of the program's fold -/

/-- The layer as a host operation from the region's input arrays to its output array. -/
abbrev op : HloOp τ sig (Elt Ideal) :=
  StableHlo.ternary main_v63 main_v65 main_v67 main_v68 (Cert.Layers.layer (F := Ideal))

variable (m : (ℓ : Loc nD τ sig) → Buf (Elt Ideal) ℓ) (ρ : Dev nD → PrngReg)

/-- What the region leaves is what that operation leaves: the output array at the layer's function of the inputs, every
    other buffer as the region found it. -/
theorem exit_eq (c : Dev nD) : W10 m ρ c = op.result (W9 m ρ c) := by
  unfold W10
  refine Cert.RegionOp.withArrays_eq_result spec3 launch3.win.arr_inj c (W9 m ρ c) _ op 3 rfl ?_ ?_
  · refine (value (V9 m ρ) c).trans ?_
    exact (StableHlo.ternary_result main_v63 main_v65 main_v67 main_v68 (Cert.Layers.layer (F := Ideal)) _ _ _ _ (W9 m ρ c)).symm
  · intro w hw
    match w, hw with
    | 0, _ => exact ((dat3 (V9 m ρ) c).arrAt_in 0 rfl _).trans (A_eq3 (V9 m ρ) c 0)
    | 1, _ => exact ((dat3 (V9 m ρ) c).arrAt_in 1 rfl _).trans (A_eq3 (V9 m ρ) c 1)
    | 2, _ => exact ((dat3 (V9 m ρ) c).arrAt_in 2 rfl _).trans (A_eq3 (V9 m ρ) c 2)
    | 3, h => exact absurd rfl h

end Cert.KernelIdeal.Layer3

end
-- ==== Proof.Layer4.lean ====
/-
  The fourth graph layer's transform: relu(a + b) W, ten blocks of 10000 rows.

  Point t of the grid loads rows 10000 t … 10000 t + 9999 of the aggregated messages, the whole bias of the previous layer and
  the whole 128 × 128 weight; it adds the bias to every row, clips at zero, multiplies, and writes the block back to the same
  rows of the output.  Row r of the output is row r of relu(a + b) W on whole arrays: bias, clip and sum only read row r.
-/
import proofs.«173528_j78958678770242_2_alg».proof.Proof.Gen.KernelIdeal.Frame
import proofs.«173528_j78958678770242_2_alg».proof.Proof.Layers
import proofs.«173528_j78958678770242_2_alg».proof.Proof.LibRegionOp

set_option maxRecDepth 16384

noncomputable section

namespace Cert.KernelIdeal.Layer4

open Cert.KernelIdeal Cert.KernelIdeal.Gen
open Idealize.ShloMosaic Idealize.ShloMosaic.TcCoe Idealize.ShloMosaic.ValueIdx
open Idealize.ShloMosaic.Pipeline (Dat)
open Cert.Dense (z)

theorem hz2 : (![0, 0] : Fin 2 → Nat) = fun _ => 0 := funext fun a => by fin_cases a <;> rfl
theorem hz1 : (![0] : Fin 1 → Nat) = fun _ => 0 := funext fun a => by fin_cases a; rfl

/-- What one block of rows computes, at row p of the block and column q. -/
theorem pay_apply (x0 : FVec Ideal S10000x128 .f32) (x1 : FVec Ideal S128 .f32) (x2 : FVec Ideal S128x128 .f32) (p : Fin 10000) (q : Fin 128) :
    k4_pay1 x0 x1 x2 (ix2 p q) = ∑ k : Fin 128, max (x0 (ix2 p k) + x1 (ix1 k)) z * x2 (ix2 k q) := by
  unfold k4_pay1
  simp only [shapeCast_self]
  exact Cert.Dense.blockLayer_apply ⟨rfl, rfl, rfl, rfl, rfl, rfl⟩ x0 x1 x2 _ _ p q

/-- The printed index maps over the grid: point t takes rows 10000 t … 10000 t + 9999 of the row-blocked arrays and the
    whole of every other. -/
theorem idx : ∀ t : Fin cfg4.N, win4_0.index t (0 : Fin 2) = t.val
    ∧ win4_0.index t (1 : Fin 2) = 0
    ∧ win4_1.index t (0 : Fin 1) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

variable (V : (c : Dev nD) → (b : Ref sig .tc) → Buf (Elt Ideal) ((c : Thread nD τ).loc b))

/-- Row p of point t's block of the row-blocked input is row 10000 t + p of the array. -/
theorem read_0 (c : Dev nD) (t : Fin cfg4.N) (p : Fin 10000) (k : Fin 128) (P : Fin 100000) (hP : P.val = t.val * 10000 + p.val) :
    (iblk4 V c 0 t : FVec Ideal S10000x128 .f32) (ix2 p k) = (V c main_v80 : FVec Ideal S100000x128 .f32) (ix2 P k) := by
  have e0 := (idx t).1
  have e1 := (idx t).2.1
  unfold iblk4
  rw [View.read_apply]
  show V c main_v80 _ = V c main_v80 _
  refine congrArg (V c main_v80) (funext fun a => Fin.ext ?_)
  match a with
  | ⟨0, _⟩ => show win4_0.index t (0 : Fin 2) * 10000 + 1 * p.val = P.val; rw [e0, hP]; omega
  | ⟨1, _⟩ => show win4_0.index t (1 : Fin 2) * 128 + 1 * k.val = k.val; rw [e1]; omega

/-- Every point's block of this input is the whole vector. -/
theorem read_1 (c : Dev nD) (t : Fin cfg4.N) (q : Fin 128) :
    (iblk4 V c 1 t : FVec Ideal S128 .f32) (ix1 q) = (V c main_v82 : FVec Ideal S128 .f32) (ix1 q) := by
  have e0 := (idx t).2.2.1
  unfold iblk4
  rw [View.read_apply]
  show V c main_v82 _ = V c main_v82 _
  refine congrArg (V c main_v82) (funext fun a => Fin.ext ?_)
  match a with
  | ⟨0, _⟩ => show win4_1.index t (0 : Fin 1) * 128 + 1 * q.val = q.val; rw [e0]; omega

/-- Every point's block of this input is the whole array. -/
theorem read_2 (c : Dev nD) (t : Fin cfg4.N) (k : Fin 128) (q : Fin 128) :
    (iblk4 V c 2 t : FVec Ideal S128x128 .f32) (ix2 k q) = (V c main_v84 : FVec Ideal S128x128 .f32) (ix2 k q) := by
  have e0 := (idx t).2.2.2.1
  have e1 := (idx t).2.2.2.2.1
  unfold iblk4
  rw [View.read_apply]
  show V c main_v84 _ = V c main_v84 _
  refine congrArg (V c main_v84) (funext fun a => Fin.ext ?_)
  match a with
  | ⟨0, _⟩ => show win4_2.index t (0 : Fin 2) * 128 + 1 * k.val = k.val; rw [e0]; omega
  | ⟨1, _⟩ => show win4_2.index t (1 : Fin 2) * 128 + 1 * q.val = q.val; rw [e1]; omega

/-- WHAT POINT t WRITES BACK is block t of the layer's function of the arrays as the region finds them. -/
theorem flushed (c : Dev nD) (t : Fin cfg4.N) :
    (dat4 (F := Ideal) V c).flushed 3 t
      = ((cfg4.win 3).blk t).view.read (Elt Ideal) (Cert.Layers.layer (F := Ideal) (V c main_v80) (V c main_v82) (V c main_v84)) := by
  show (cfg4.win 3).cut (grid4.coords t) ((dat4 V c).after 3 t) = _
  rw [after4_3]
  unfold out4_3
  rw [View.canon_unit_zero hz2]
  simp only [View.ld_unit_zero (S := S10000x128) hz2, View.ld_unit_zero (S := S128) hz1, View.ld_unit_zero (S := S128x128) hz2]
  funext j
  obtain ⟨p, q, rfl⟩ : ∃ (p : Fin 10000) (q : Fin 128), j = ix2 p q := ⟨j 0, j 1, eq_ix2 j⟩
  have ht : t.val < 10 := by have h := t.isLt; have hN : cfg4.N = 10 := N_4; omega
  obtain ⟨P, hP⟩ : ∃ P : Fin 100000, P.val = t.val * 10000 + p.val := ⟨⟨t.val * 10000 + p.val, by omega⟩, rfl⟩
  have e5 : win4_3.index t (0 : Fin 2) = t.val := (idx t).2.2.2.2.2.1
  have e6 : win4_3.index t (1 : Fin 2) = 0 := (idx t).2.2.2.2.2.2
  have hemb : ((cfg4.win 3).blk t).view.emb (ix2 p q) = ix2 P q :=
    funext fun a => Fin.ext (by
      match a with
      | ⟨0, _⟩ => show win4_3.index t (0 : Fin 2) * 10000 + 1 * p.val = P.val; rw [e5, hP]; omega
      | ⟨1, _⟩ => show win4_3.index t (1 : Fin 2) * 128 + 1 * q.val = q.val; rw [e6]; omega)
  rw [View.read_apply]
  show k4_pay1 _ _ _ (ix2 p q) = Cert.Layers.layer (F := Ideal) _ _ _ (((cfg4.win 3).blk t).view.emb (ix2 p q))
  rw [hemb, Cert.Layers.layer_apply]
  refine (pay_apply _ _ _ p q).trans ?_
  refine Finset.sum_congr rfl fun k _ => ?_
  rw [read_0 V c t p k P hP, read_1 V c t k, read_2 V c t k q]

/-- An index of the output array is in point t's block iff its row is among the block's rows. -/
theorem mem_blk (t : Fin cfg4.N) (i : S100000x128.Idx) :
    i ∈ ((cfg4.win 3).blk t).view.set ↔ ∀ a : Fin 2, win4_3.index t a * S10000x128.size a ≤ (i a).val ∧ (i a).val < win4_3.index t a * S10000x128.size a + S10000x128.size a := by
  show i ∈ ((View.whole main_v85).slice (win4_3.rect t)).set ↔ _
  rw [View.set_slice_whole, Rect.mem_set_unit]
  exact Iff.rfl

/-- THE OUTPUT ARRAY after the region: the layer's function of the arrays as the region finds them (row r is in the block
    of point r / 10000). -/
theorem value (c : Dev nD) :
    (dat4 (F := Ideal) V c).arrAt 3 cfg4.N = Cert.Layers.layer (F := Ideal) (V c main_v80) (V c main_v82) (V c main_v84) :=
  (dat4 V c).arrAt_eq_of_cover 3 _ (fun t _ => flushed V c t) fun i => by
    have hi0 : (i 0).val < 100000 := (i 0).isLt
    have hi1 : (i 1).val < 128 := (i 1).isLt
    have hN : cfg4.N = 10 := N_4
    refine ⟨⟨(i 0).val / 10000, by rw [hN]; omega⟩, flush4_3 _, ?_⟩
    rw [mem_blk]
    have e5 := (idx ⟨(i 0).val / 10000, by rw [hN]; omega⟩).2.2.2.2.2.1
    have e6 := (idx ⟨(i 0).val / 10000, by rw [hN]; omega⟩).2.2.2.2.2.2
    intro a
    match a with
    | ⟨0, _⟩ =>
      show win4_3.index _ (0 : Fin 2) * 10000 ≤ (i 0).val ∧ (i 0).val < win4_3.index _ (0 : Fin 2) * 10000 + 10000
      rw [e5]; show (i 0).val / 10000 * 10000 ≤ (i 0).val ∧ (i 0).val < (i 0).val / 10000 * 10000 + 10000; omega
    | ⟨1, _⟩ =>
      show win4_3.index _ (1 : Fin 2) * 128 ≤ (i 1).val ∧ (i 1).val < win4_3.index _ (1 : Fin 2) * 128 + 128
      rw [e6]; omega

/-! ## The region as one operation of the program's fold -/

/-- The layer as a host operation from the region's input arrays to its output array. -/
abbrev op : HloOp τ sig (Elt Ideal) :=
  StableHlo.ternary main_v80 main_v82 main_v84 main_v85 (Cert.Layers.layer (F := Ideal))

variable (m : (ℓ : Loc nD τ sig) → Buf (Elt Ideal) ℓ) (ρ : Dev nD → PrngReg)

/-- What the region leaves is what that operation leaves: the output array at the layer's function of the inputs, every
    other buffer as the region found it. -/
theorem exit_eq (c : Dev nD) : W12 m ρ c = op.result (W11 m ρ c) := by
  unfold W12
  refine Cert.RegionOp.withArrays_eq_result spec4 launch4.win.arr_inj c (W11 m ρ c) _ op 3 rfl ?_ ?_
  · refine (value (V11 m ρ) c).trans ?_
    exact (StableHlo.ternary_result main_v80 main_v82 main_v84 main_v85 (Cert.Layers.layer (F := Ideal)) _ _ _ _ (W11 m ρ c)).symm
  · intro w hw
    match w, hw with
    | 0, _ => exact ((dat4 (V11 m ρ) c).arrAt_in 0 rfl _).trans (A_eq4 (V11 m ρ) c 0)
    | 1, _ => exact ((dat4 (V11 m ρ) c).arrAt_in 1 rfl _).trans (A_eq4 (V11 m ρ) c 1)
    | 2, _ => exact ((dat4 (V11 m ρ) c).arrAt_in 2 rfl _).trans (A_eq4 (V11 m ρ) c 2)
    | 3, h => exact absurd rfl h

end Cert.KernelIdeal.Layer4

end
-- ==== Proof.Decoder.lean ====
/-
  The decoder: relu(a + b) W + b', ten blocks of 10000 rows.

  Point t of the grid loads rows 10000 t … 10000 t + 9999 of the last layer's aggregated messages, that layer's bias, the whole
  128 × 3 weight and the decoder's own bias; it adds the first bias to every row, clips at zero, multiplies, adds the second bias,
  and writes the block back to the same rows of the result.  Row r of the result is row r of relu(a + b) W + b' on whole arrays.
-/
import proofs.«173528_j78958678770242_2_alg».proof.Proof.Gen.KernelIdeal.Frame
import proofs.«173528_j78958678770242_2_alg».proof.Proof.Layers
import proofs.«173528_j78958678770242_2_alg».proof.Proof.LibRegionOp

set_option maxRecDepth 16384

noncomputable section

namespace Cert.KernelIdeal.Decoder

open Cert.KernelIdeal Cert.KernelIdeal.Gen
open Idealize.ShloMosaic Idealize.ShloMosaic.TcCoe Idealize.ShloMosaic.ValueIdx
open Idealize.ShloMosaic.Pipeline (Dat)
open Cert.Dense (z)

theorem hz2 : (![0, 0] : Fin 2 → Nat) = fun _ => 0 := funext fun a => by fin_cases a <;> rfl
theorem hz1 : (![0] : Fin 1 → Nat) = fun _ => 0 := funext fun a => by fin_cases a; rfl

/-- What one block of rows computes, at row p of the block and column q. -/
theorem pay_apply (x0 : FVec Ideal S10000x128 .f32) (x1 : FVec Ideal S128 .f32) (x2 : FVec Ideal S128x3 .f32) (x3 : FVec Ideal S3 .f32) (p : Fin 10000) (q : Fin 3) :
    k5_pay1 x0 x1 x2 x3 (ix2 p q) = (∑ k : Fin 128, max (x0 (ix2 p k) + x1 (ix1 k)) z * x2 (ix2 k q)) + x3 (ix1 q) := by
  unfold k5_pay1
  simp only [shapeCast_self]
  exact Cert.Dense.blockDecode_apply ⟨rfl, rfl, rfl, rfl, rfl, rfl⟩ x0 x1 x2 x3 _ _ _ _ p q

/-- The printed index maps over the grid: point t takes rows 10000 t … 10000 t + 9999 of the row-blocked arrays and the
    whole of every other. -/
theorem idx : ∀ t : Fin cfg5.N, win5_0.index t (0 : Fin 2) = t.val
    ∧ win5_0.index t (1 : Fin 2) = 0
    ∧ win5_1.index t (0 : Fin 1) = 0
    ∧ win5_2.index t (0 : Fin 2) = 0
    ∧ win5_2.index t (1 : Fin 2) = 0
    ∧ win5_3.index t (0 : Fin 1) = 0
    ∧ win5_4.index t (0 : Fin 2) = t.val
    ∧ win5_4.index t (1 : Fin 2) = 0 :=
  (by decide +kernel : ∀ t : Fin grid5.N, _)

variable (V : (c : Dev nD) → (b : Ref sig .tc) → Buf (Elt Ideal) ((c : Thread nD τ).loc b))

/-- Row p of point t's block of the row-blocked input is row 10000 t + p of the array. -/
theorem read_0 (c : Dev nD) (t : Fin cfg5.N) (p : Fin 10000) (k : Fin 128) (P : Fin 100000) (hP : P.val = t.val * 10000 + p.val) :
    (iblk5 V c 0 t : FVec Ideal S10000x128 .f32) (ix2 p k) = (V c main_v97 : FVec Ideal S100000x128 .f32) (ix2 P k) := by
  have e0 := (idx t).1
  have e1 := (idx t).2.1
  unfold iblk5
  rw [View.read_apply]
  show V c main_v97 _ = V c main_v97 _
  refine congrArg (V c main_v97) (funext fun a => Fin.ext ?_)
  match a with
  | ⟨0, _⟩ => show win5_0.index t (0 : Fin 2) * 10000 + 1 * p.val = P.val; rw [e0, hP]; omega
  | ⟨1, _⟩ => show win5_0.index t (1 : Fin 2) * 128 + 1 * k.val = k.val; rw [e1]; omega

/-- Every point's block of this input is the whole vector. -/
theorem read_1 (c : Dev nD) (t : Fin cfg5.N) (q : Fin 128) :
    (iblk5 V c 1 t : FVec Ideal S128 .f32) (ix1 q) = (V c main_v99 : FVec Ideal S128 .f32) (ix1 q) := by
  have e0 := (idx t).2.2.1
  unfold iblk5
  rw [View.read_apply]
  show V c main_v99 _ = V c main_v99 _
  refine congrArg (V c main_v99) (funext fun a => Fin.ext ?_)
  match a with
  | ⟨0, _⟩ => show win5_1.index t (0 : Fin 1) * 128 + 1 * q.val = q.val; rw [e0]; omega

/-- Every point's block of this input is the whole array. -/
theorem read_2 (c : Dev nD) (t : Fin cfg5.N) (k : Fin 128) (q : Fin 3) :
    (iblk5 V c 2 t : FVec Ideal S128x3 .f32) (ix2 k q) = (V c main_arg6 : FVec Ideal S128x3 .f32) (ix2 k q) := by
  have e0 := (idx t).2.2.2.1
  have e1 := (idx t).2.2.2.2.1
  unfold iblk5
  rw [View.read_apply]
  show V c main_arg6 _ = V c main_arg6 _
  refine congrArg (V c main_arg6) (funext fun a => Fin.ext ?_)
  match a with
  | ⟨0, _⟩ => show win5_2.index t (0 : Fin 2) * 128 + 1 * k.val = k.val; rw [e0]; omega
  | ⟨1, _⟩ => show win5_2.index t (1 : Fin 2) * 3 + 1 * q.val = q.val; rw [e1]; omega

/-- Every point's block of this input is the whole vector. -/
theorem read_3 (c : Dev nD) (t : Fin cfg5.N) (q : Fin 3) :
    (iblk5 V c 3 t : FVec Ideal S3 .f32) (ix1 q) = (V c main_arg7 : FVec Ideal S3 .f32) (ix1 q) := by
  have e0 := (idx t).2.2.2.2.2.1
  unfold iblk5
  rw [View.read_apply]
  show V c main_arg7 _ = V c main_arg7 _
  refine congrArg (V c main_arg7) (funext fun a => Fin.ext ?_)
  match a with
  | ⟨0, _⟩ => show win5_3.index t (0 : Fin 1) * 3 + 1 * q.val = q.val; rw [e0]; omega

/-- WHAT POINT t WRITES BACK is block t of the layer's function of the arrays as the region finds them. -/
theorem flushed (c : Dev nD) (t : Fin cfg5.N) :
    (dat5 (F := Ideal) V c).flushed 4 t
      = ((cfg5.win 4).blk t).view.read (Elt Ideal) (Cert.Layers.decode (F := Ideal) (V c main_v97) (V c main_v99) (V c main_arg6) (V c main_arg7)) := by
  show (cfg5.win 4).cut (grid5.coords t) ((dat5 V c).after 4 t) = _
  rw [after5_4]
  unfold out5_4
  rw [View.canon_unit_zero hz2]
  simp only [View.ld_unit_zero (S := S10000x128) hz2, View.ld_unit_zero (S := S128) hz1, View.ld_unit_zero (S := S128x3) hz2, View.ld_unit_zero (S := S3) hz1]
  funext j
  obtain ⟨p, q, rfl⟩ : ∃ (p : Fin 10000) (q : Fin 3), j = ix2 p q := ⟨j 0, j 1, eq_ix2 j⟩
  have ht : t.val < 10 := by have h := t.isLt; have hN : cfg5.N = 10 := N_5; omega
  obtain ⟨P, hP⟩ : ∃ P : Fin 100000, P.val = t.val * 10000 + p.val := ⟨⟨t.val * 10000 + p.val, by omega⟩, rfl⟩
  have e5 : win5_4.index t (0 : Fin 2) = t.val := (idx t).2.2.2.2.2.2.1
  have e6 : win5_4.index t (1 : Fin 2) = 0 := (idx t).2.2.2.2.2.2.2
  have hemb : ((cfg5.win 4).blk t).view.emb (ix2 p q) = ix2 P q :=
    funext fun a => Fin.ext (by
      match a with
      | ⟨0, _⟩ => show win5_4.index t (0 : Fin 2) * 10000 + 1 * p.val = P.val; rw [e5, hP]; omega
      | ⟨1, _⟩ => show win5_4.index t (1 : Fin 2) * 3 + 1 * q.val = q.val; rw [e6]; omega)
  rw [View.read_apply]
  show k5_pay1 _ _ _ _ (ix2 p q) = Cert.Layers.decode (F := Ideal) _ _ _ _ (((cfg5.win 4).blk t).view.emb (ix2 p q))
  rw [hemb, Cert.Layers.decode_apply]
  refine (pay_apply _ _ _ _ p q).trans ?_
  refine congrArg₂ (· + ·) (Finset.sum_congr rfl fun k _ => ?_) (read_3 V c t q)
  rw [read_0 V c t p k P hP, read_1 V c t k, read_2 V c t k q]

/-- An index of the output array is in point t's block iff its row is among the block's rows. -/
theorem mem_blk (t : Fin cfg5.N) (i : S100000x3.Idx) :
    i ∈ ((cfg5.win 4).blk t).view.set ↔ ∀ a : Fin 2, win5_4.index t a * S10000x3.size a ≤ (i a).val ∧ (i a).val < win5_4.index t a * S10000x3.size a + S10000x3.size a := by
  show i ∈ ((View.whole main_v100).slice (win5_4.rect t)).set ↔ _
  rw [View.set_slice_whole, Rect.mem_set_unit]
  exact Iff.rfl

/-- THE OUTPUT ARRAY after the region: the layer's function of the arrays as the region finds them (row r is in the block
    of point r / 10000). -/
theorem value (c : Dev nD) :
    (dat5 (F := Ideal) V c).arrAt 4 cfg5.N = Cert.Layers.decode (F := Ideal) (V c main_v97) (V c main_v99) (V c main_arg6) (V c main_arg7) :=
  (dat5 V c).arrAt_eq_of_cover 4 _ (fun t _ => flushed V c t) fun i => by
    have hi0 : (i 0).val < 100000 := (i 0).isLt
    have hi1 : (i 1).val < 3 := (i 1).isLt
    have hN : cfg5.N = 10 := N_5
    refine ⟨⟨(i 0).val / 10000, by rw [hN]; omega⟩, flush5_4 _, ?_⟩
    rw [mem_blk]
    have e5 := (idx ⟨(i 0).val / 10000, by rw [hN]; omega⟩).2.2.2.2.2.2.1
    have e6 := (idx ⟨(i 0).val / 10000, by rw [hN]; omega⟩).2.2.2.2.2.2.2
    intro a
    match a with
    | ⟨0, _⟩ =>
      show win5_4.index _ (0 : Fin 2) * 10000 ≤ (i 0).val ∧ (i 0).val < win5_4.index _ (0 : Fin 2) * 10000 + 10000
      rw [e5]; show (i 0).val / 10000 * 10000 ≤ (i 0).val ∧ (i 0).val < (i 0).val / 10000 * 10000 + 10000; omega
    | ⟨1, _⟩ =>
      show win5_4.index _ (1 : Fin 2) * 3 ≤ (i 1).val ∧ (i 1).val < win5_4.index _ (1 : Fin 2) * 3 + 3
      rw [e6]; omega

/-! ## The region as one operation of the program's fold -/

/-- The layer as a host operation from the region's input arrays to its output array. -/
abbrev op : HloOp τ sig (Elt Ideal) :=
  StableHlo.quaternary main_v97 main_v99 main_arg6 main_arg7 main_v100 (Cert.Layers.decode (F := Ideal))

variable (m : (ℓ : Loc nD τ sig) → Buf (Elt Ideal) ℓ) (ρ : Dev nD → PrngReg)

/-- What the region leaves is what that operation leaves: the output array at the layer's function of the inputs, every
    other buffer as the region found it. -/
theorem exit_eq (c : Dev nD) : W14 m ρ c = op.result (W13 m ρ c) := by
  unfold W14
  refine Cert.RegionOp.withArrays_eq_result spec5 launch5.win.arr_inj c (W13 m ρ c) _ op 4 rfl ?_ ?_
  · refine (value (V13 m ρ) c).trans ?_
    exact (StableHlo.quaternary_result main_v97 main_v99 main_arg6 main_arg7 main_v100 (Cert.Layers.decode (F := Ideal)) _ _ _ _ _ (W13 m ρ c)).symm
  · intro w hw
    match w, hw with
    | 0, _ => exact ((dat5 (V13 m ρ) c).arrAt_in 0 rfl _).trans (A_eq5 (V13 m ρ) c 0)
    | 1, _ => exact ((dat5 (V13 m ρ) c).arrAt_in 1 rfl _).trans (A_eq5 (V13 m ρ) c 1)
    | 2, _ => exact ((dat5 (V13 m ρ) c).arrAt_in 2 rfl _).trans (A_eq5 (V13 m ρ) c 2)
    | 3, _ => exact ((dat5 (V13 m ρ) c).arrAt_in 3 rfl _).trans (A_eq5 (V13 m ρ) c 3)
    | 4, h => exact absurd rfl h

end Cert.KernelIdeal.Decoder

end
-- ==== Proof.Graph.lean ====
/-
  The graph's shared quantities, in the host's operations.

  The edge list is a [2, 1600000] integer array: row 0 the sources, row 1 the targets.  Both programs append the
  100000 self loops 0, 1, …, 99999 to each row, count each node's in-degree (self loop included) by scatter-adding a
  one per edge at its target, and take the inverse square root of the degree where it is positive.  These few values
  are named here once, so that what a program holds in a buffer can be stated as "the sources", "the degrees", rather
  than spelt out.
-/
import proofs.«173528_j78958678770242_2_alg».proof.Proof.Gen.ReferenceIdeal

noncomputable section

namespace Cert.Graph

open Idealize.ShloMosaic
open Cert.ReferenceIdeal Cert.ReferenceIdeal.Gen

variable {F : FTy → Type} [FloatOps F]

/-- The sources of the edges, the self loops appended. -/
def source (E : (⟨S2x1600000, .i32⟩ : BufTy).Contents (Elt F)) : (⟨S1700000, .i32⟩ : BufTy).Contents (Elt F) :=
  concatenate S1700000 0
    [⟨S1600000, shapeCast S1600000 (extractStridedSlice S1x1600000 ![0, 0] E slices_S2x1600000_S1x1600000_0_0) shapeCasts_S1x1600000_S1600000⟩,
      ⟨S100000, iotaInDim S100000 32 0⟩]
    concatenates_S1600000_S100000_S1700000_d0

/-- The targets of the edges, the self loops appended. -/
def target (E : (⟨S2x1600000, .i32⟩ : BufTy).Contents (Elt F)) : (⟨S1700000, .i32⟩ : BufTy).Contents (Elt F) :=
  concatenate S1700000 0
    [⟨S1600000, shapeCast S1600000 (extractStridedSlice S1x1600000 ![1, 0] E slices_S2x1600000_S1x1600000_1_0) shapeCasts_S1x1600000_S1600000⟩,
      ⟨S100000, iotaInDim S100000 32 0⟩]
    concatenates_S1600000_S100000_S1700000_d0

/-- Each node's degree: a one scatter-added at the target of every edge. -/
def degree (E : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 (target E))
    (broadcastInDim S1700000 ![] bcast_S_S1700000 (constant (F := F) S_ .f32 0x3F800000#32))

/-- Where the degree is positive. -/
def positive (E : (⟨S2x1600000, .i32⟩ : BufTy).Contents (Elt F)) : (⟨S100000, .i1⟩ : BufTy).Contents (Elt F) :=
  cmpf (F := F) .ogt (degree E) (broadcastInDim S100000 ![] bcast_S_S100000 (constant (F := F) S_ .f32 0x00000000#32))

/-- The inverse square root of the degree. -/
def invSqrt (E : (⟨S2x1600000, .i32⟩ : BufTy).Contents (Elt F)) : (⟨S100000, .f32⟩ : BufTy).Contents (Elt F) :=
  Host.rsqrt (degree E)

/-- A node index column for a gather: a negative index is moved up by the number of nodes (it never is; the host writes
    the normalisation anyway), then the vector is viewed as a column. -/
def wrap (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The inverse square root of the degree where the degree is positive, zero elsewhere. -/
def dinv (E : (⟨S2x1600000, .i32⟩ : BufTy).Contents (Elt F)) : (⟨S100000, .f32⟩ : BufTy).Contents (Elt F) :=
  select (positive E) (invSqrt E) (broadcastInDim S100000 ![] bcast_S_S100000 (id (constant (F := F) S_ .f32 0x00000000#32)))

/-- The weight of every edge, as a column: the product of its two endpoints' inverse-root degrees. -/
def weight (E : (⟨S2x1600000, .i32⟩ : BufTy).Contents (Elt F)) : (⟨S1700000x1, .f32⟩ : BufTy).Contents (Elt F) :=
  broadcastInDim S1700000x1 ![0] bcast_S1700000_S1700000x1_0
    (mulf (Host.gather gather_S100000_S1700000x1_S1700000_n_0_n_n_0_1_1 (dinv E) (wrap (F := F) (source E)))
      (Host.gather gather_S100000_S1700000x1_S1700000_n_0_n_n_0_1_1 (dinv E) (wrap (F := F) (target E))))

end Cert.Graph

end
-- ==== Proof.LibTypedRef.lean ====
/-
  Typed references and the transports they carry.

  A typed reference pairs a buffer with the type of the tensor value it holds; contents at the value's type are moved to
  contents of the buffer and back along the equation between the two types.  The transports change nothing: going there and
  back is the identity, and a transported value equals any value of the other type that it is heterogeneously equal to.
-/
import Idealize.ShloMosaic.Lib.StableHlo.Run

noncomputable section

namespace Cert.TypedRef

open Idealize.ShloMosaic Idealize.ShloMosaic.StableHlo

variable {sig : RefSig} {Val : EltTy → Type} {T : BufTy}

/-- To the buffer's type and back is the identity. -/
theorem ofBuf_toBuf (x : TRef sig T) (v : T.Contents Val) : x.ofBuf (x.toBuf v) = v := by
  obtain ⟨r, h, h1, h2⟩ := x
  subst h
  rfl

/-- A value moved to the buffer's type is any value of that type it is heterogeneously equal to. -/
theorem toBuf_eq (x : TRef sig T) (v : T.Contents Val) (w : x.ref.ty.Contents Val) (h : HEq v w) : x.toBuf v = w :=
  eq_of_heq ((cast_heq _ v).trans h)

/-- A value moved from the buffer's type is any value of the value's type it is heterogeneously equal to. -/
theorem ofBuf_eq (x : TRef sig T) (v : x.ref.ty.Contents Val) (w : T.Contents Val) (h : HEq v w) : x.ofBuf v = w :=
  eq_of_heq ((cast_heq _ v).trans h)

end Cert.TypedRef

end
-- ==== Proof.FirstStretch.lean ====
/-
  What the host operations before the first region leave.

  Before the first region the kernel program slices the two rows of the edge list, appends the self loops to each,
  scatter-adds a one per edge at its target to count the degrees, compares the degrees with zero and takes their inverse
  square roots.  The buffers of this stretch that later segments read are stated here one by one — the sources, the
  targets, the positivity mask, the inverse square roots, a scalar zero — beside the eight arguments, which the stretch
  leaves as launched.
-/
import proofs.«173528_j78958678770242_2_alg».proof.Proof.Gen.KernelIdeal.Frame
import proofs.«173528_j78958678770242_2_alg».proof.Proof.Graph
import proofs.«173528_j78958678770242_2_alg».proof.Proof.LibTypedRef
import Idealize.ShloMosaic.PureOps.Ideal

set_option maxRecDepth 16384

noncomputable section

namespace Cert.KernelIdeal.FirstStretch

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

theorem first_source (c : Dev nD) :
    after hostOps0 (W0 m ρ c) (Proc.devRef .tc main_v5) = Cert.Graph.source (F := Ideal) (m ((c.tc : Thread nD τ).loc main_arg1)) := by
  after_results <;> rfl

theorem first_target (c : Dev nD) :
    after hostOps0 (W0 m ρ c) (Proc.devRef .tc main_v6) = Cert.Graph.target (F := Ideal) (m ((c.tc : Thread nD τ).loc main_arg1)) := by
  after_results <;> rfl

theorem first_positive (c : Dev nD) :
    after hostOps0 (W0 m ρ c) (Proc.devRef .tc main_v12) = Cert.Graph.positive (F := Ideal) (m ((c.tc : Thread nD τ).loc main_arg1)) := by
  after_results <;> rfl

theorem first_invSqrt (c : Dev nD) :
    after hostOps0 (W0 m ρ c) (Proc.devRef .tc main_v13) = Cert.Graph.invSqrt (F := Ideal) (m ((c.tc : Thread nD τ).loc main_arg1)) := by
  after_results <;> rfl

theorem first_zero (c : Dev nD) :
    after hostOps0 (W0 m ρ c) (Proc.devRef .tc main_cst_2) = constant (F := Ideal) S_ .f32 0x00000000#32 := by
  after_results <;> rfl

theorem first_arg0 (c : Dev nD) :
    after hostOps0 (W0 m ρ c) (Proc.devRef .tc main_arg0) = m ((c.tc : Thread nD τ).loc main_arg0) := by
  after_results <;> rfl
theorem first_arg1 (c : Dev nD) :
    after hostOps0 (W0 m ρ c) (Proc.devRef .tc main_arg1) = m ((c.tc : Thread nD τ).loc main_arg1) := by
  after_results <;> rfl
theorem first_arg2 (c : Dev nD) :
    after hostOps0 (W0 m ρ c) (Proc.devRef .tc main_arg2) = m ((c.tc : Thread nD τ).loc main_arg2) := by
  after_results <;> rfl
theorem first_arg3 (c : Dev nD) :
    after hostOps0 (W0 m ρ c) (Proc.devRef .tc main_arg3) = m ((c.tc : Thread nD τ).loc main_arg3) := by
  after_results <;> rfl
theorem first_arg4 (c : Dev nD) :
    after hostOps0 (W0 m ρ c) (Proc.devRef .tc main_arg4) = m ((c.tc : Thread nD τ).loc main_arg4) := by
  after_results <;> rfl
theorem first_arg5 (c : Dev nD) :
    after hostOps0 (W0 m ρ c) (Proc.devRef .tc main_arg5) = m ((c.tc : Thread nD τ).loc main_arg5) := by
  after_results <;> rfl
theorem first_arg6 (c : Dev nD) :
    after hostOps0 (W0 m ρ c) (Proc.devRef .tc main_arg6) = m ((c.tc : Thread nD τ).loc main_arg6) := by
  after_results <;> rfl
theorem first_arg7 (c : Dev nD) :
    after hostOps0 (W0 m ρ c) (Proc.devRef .tc main_arg7) = m ((c.tc : Thread nD τ).loc main_arg7) := by
  after_results <;> rfl

/-! ## After the outlined selection: the inverse-root degrees -/

theorem second_dinv (c : Dev nD) :
    after hostOps0_1 (after hostOps0 (W0 m ρ c)) (Proc.devRef .tc main_v14) = Cert.Graph.dinv (F := Ideal) (m ((c.tc : Thread nD τ).loc main_arg1)) := by
  have l12 := first_positive m ρ c
  have l13 := first_invSqrt m ρ c
  have lz := first_zero m ρ c
  generalize after hostOps0 (W0 m ρ c) = X at l12 l13 lz ⊢
  after_results
  rw [l12, l13, lz]
  simp only [Cert.TypedRef.ofBuf_toBuf]
  refine Cert.TypedRef.toBuf_eq _ _ _ (heq_of_eq ?_)
  rw [Cert.TypedRef.ofBuf_eq _ _ (Cert.Graph.positive (F := Ideal) (m ((c.tc : Thread nD τ).loc main_arg1))) HEq.rfl,
    Cert.TypedRef.ofBuf_eq _ _ (Cert.Graph.invSqrt (F := Ideal) (m ((c.tc : Thread nD τ).loc main_arg1))) HEq.rfl,
    Cert.TypedRef.ofBuf_eq _ _ (constant (F := Ideal) S_ .f32 0x00000000#32) HEq.rfl]
  rfl

theorem second_source (c : Dev nD) :
    after hostOps0_1 (after hostOps0 (W0 m ρ c)) (Proc.devRef .tc main_v5) = Cert.Graph.source (F := Ideal) (m ((c.tc : Thread nD τ).loc main_arg1)) := by
  have a := first_source m ρ c
  generalize after hostOps0 (W0 m ρ c) = X at a ⊢
  after_results
  exact a

theorem second_target (c : Dev nD) :
    after hostOps0_1 (after hostOps0 (W0 m ρ c)) (Proc.devRef .tc main_v6) = Cert.Graph.target (F := Ideal) (m ((c.tc : Thread nD τ).loc main_arg1)) := by
  have a := first_target m ρ c
  generalize after hostOps0 (W0 m ρ c) = X at a ⊢
  after_results
  exact a

theorem second_arg0 (c : Dev nD) :
    after hostOps0_1 (after hostOps0 (W0 m ρ c)) (Proc.devRef .tc main_arg0) = m ((c.tc : Thread nD τ).loc main_arg0) := by
  have a := first_arg0 m ρ c
  generalize after hostOps0 (W0 m ρ c) = X at a ⊢
  after_results
  exact a
theorem second_arg1 (c : Dev nD) :
    after hostOps0_1 (after hostOps0 (W0 m ρ c)) (Proc.devRef .tc main_arg1) = m ((c.tc : Thread nD τ).loc main_arg1) := by
  have a := first_arg1 m ρ c
  generalize after hostOps0 (W0 m ρ c) = X at a ⊢
  after_results
  exact a
theorem second_arg2 (c : Dev nD) :
    after hostOps0_1 (after hostOps0 (W0 m ρ c)) (Proc.devRef .tc main_arg2) = m ((c.tc : Thread nD τ).loc main_arg2) := by
  have a := first_arg2 m ρ c
  generalize after hostOps0 (W0 m ρ c) = X at a ⊢
  after_results
  exact a
theorem second_arg3 (c : Dev nD) :
    after hostOps0_1 (after hostOps0 (W0 m ρ c)) (Proc.devRef .tc main_arg3) = m ((c.tc : Thread nD τ).loc main_arg3) := by
  have a := first_arg3 m ρ c
  generalize after hostOps0 (W0 m ρ c) = X at a ⊢
  after_results
  exact a
theorem second_arg4 (c : Dev nD) :
    after hostOps0_1 (after hostOps0 (W0 m ρ c)) (Proc.devRef .tc main_arg4) = m ((c.tc : Thread nD τ).loc main_arg4) := by
  have a := first_arg4 m ρ c
  generalize after hostOps0 (W0 m ρ c) = X at a ⊢
  after_results
  exact a
theorem second_arg5 (c : Dev nD) :
    after hostOps0_1 (after hostOps0 (W0 m ρ c)) (Proc.devRef .tc main_arg5) = m ((c.tc : Thread nD τ).loc main_arg5) := by
  have a := first_arg5 m ρ c
  generalize after hostOps0 (W0 m ρ c) = X at a ⊢
  after_results
  exact a
theorem second_arg6 (c : Dev nD) :
    after hostOps0_1 (after hostOps0 (W0 m ρ c)) (Proc.devRef .tc main_arg6) = m ((c.tc : Thread nD τ).loc main_arg6) := by
  have a := first_arg6 m ρ c
  generalize after hostOps0 (W0 m ρ c) = X at a ⊢
  after_results
  exact a
theorem second_arg7 (c : Dev nD) :
    after hostOps0_1 (after hostOps0 (W0 m ρ c)) (Proc.devRef .tc main_arg7) = m ((c.tc : Thread nD τ).loc main_arg7) := by
  have a := first_arg7 m ρ c
  generalize after hostOps0 (W0 m ρ c) = X at a ⊢
  after_results
  exact a

/-! ## At the first region's entry: the edge weights -/

set_option maxHeartbeats 4000000 in
theorem third_weight (c : Dev nD) :
    after hostOps0_2 (after hostOps0_1 (after hostOps0 (W0 m ρ c))) (Proc.devRef .tc main_v30) = Cert.Graph.weight (F := Ideal) (m ((c.tc : Thread nD τ).loc main_arg1)) := by
  have l14 := second_dinv m ρ c
  have l5 := second_source m ρ c
  have l6 := second_target m ρ c
  generalize after hostOps0_1 (after hostOps0 (W0 m ρ c)) = X at l14 l5 l6 ⊢
  after_results_simp
  simp only [l14, l5, l6]
  rfl

theorem third_source (c : Dev nD) :
    after hostOps0_2 (after hostOps0_1 (after hostOps0 (W0 m ρ c))) (Proc.devRef .tc main_v5) = Cert.Graph.source (F := Ideal) (m ((c.tc : Thread nD τ).loc main_arg1)) := by
  have a := second_source m ρ c
  generalize after hostOps0_1 (after hostOps0 (W0 m ρ c)) = X at a ⊢
  after_results
  exact a

theorem third_target (c : Dev nD) :
    after hostOps0_2 (after hostOps0_1 (after hostOps0 (W0 m ρ c))) (Proc.devRef .tc main_v6) = Cert.Graph.target (F := Ideal) (m ((c.tc : Thread nD τ).loc main_arg1)) := by
  have a := second_target m ρ c
  generalize after hostOps0_1 (after hostOps0 (W0 m ρ c)) = X at a ⊢
  after_results
  exact a

theorem third_arg0 (c : Dev nD) :
    after hostOps0_2 (after hostOps0_1 (after hostOps0 (W0 m ρ c))) (Proc.devRef .tc main_arg0) = m ((c.tc : Thread nD τ).loc main_arg0) := by
  have a := second_arg0 m ρ c
  generalize after hostOps0_1 (after hostOps0 (W0 m ρ c)) = X at a ⊢
  after_results
  exact a
theorem third_arg1 (c : Dev nD) :
    after hostOps0_2 (after hostOps0_1 (after hostOps0 (W0 m ρ c))) (Proc.devRef .tc main_arg1) = m ((c.tc : Thread nD τ).loc main_arg1) := by
  have a := second_arg1 m ρ c
  generalize after hostOps0_1 (after hostOps0 (W0 m ρ c)) = X at a ⊢
  after_results
  exact a
theorem third_arg2 (c : Dev nD) :
    after hostOps0_2 (after hostOps0_1 (after hostOps0 (W0 m ρ c))) (Proc.devRef .tc main_arg2) = m ((c.tc : Thread nD τ).loc main_arg2) := by
  have a := second_arg2 m ρ c
  generalize after hostOps0_1 (after hostOps0 (W0 m ρ c)) = X at a ⊢
  after_results
  exact a
theorem third_arg3 (c : Dev nD) :
    after hostOps0_2 (after hostOps0_1 (after hostOps0 (W0 m ρ c))) (Proc.devRef .tc main_arg3) = m ((c.tc : Thread nD τ).loc main_arg3) := by
  have a := second_arg3 m ρ c
  generalize after hostOps0_1 (after hostOps0 (W0 m ρ c)) = X at a ⊢
  after_results
  exact a
theorem third_arg4 (c : Dev nD) :
    after hostOps0_2 (after hostOps0_1 (after hostOps0 (W0 m ρ c))) (Proc.devRef .tc main_arg4) = m ((c.tc : Thread nD τ).loc main_arg4) := by
  have a := second_arg4 m ρ c
  generalize after hostOps0_1 (after hostOps0 (W0 m ρ c)) = X at a ⊢
  after_results
  exact a
theorem third_arg5 (c : Dev nD) :
    after hostOps0_2 (after hostOps0_1 (after hostOps0 (W0 m ρ c))) (Proc.devRef .tc main_arg5) = m ((c.tc : Thread nD τ).loc main_arg5) := by
  have a := second_arg5 m ρ c
  generalize after hostOps0_1 (after hostOps0 (W0 m ρ c)) = X at a ⊢
  after_results
  exact a
theorem third_arg6 (c : Dev nD) :
    after hostOps0_2 (after hostOps0_1 (after hostOps0 (W0 m ρ c))) (Proc.devRef .tc main_arg6) = m ((c.tc : Thread nD τ).loc main_arg6) := by
  have a := second_arg6 m ρ c
  generalize after hostOps0_1 (after hostOps0 (W0 m ρ c)) = X at a ⊢
  after_results
  exact a
theorem third_arg7 (c : Dev nD) :
    after hostOps0_2 (after hostOps0_1 (after hostOps0 (W0 m ρ c))) (Proc.devRef .tc main_arg7) = m ((c.tc : Thread nD τ).loc main_arg7) := by
  have a := second_arg7 m ρ c
  generalize after hostOps0_1 (after hostOps0 (W0 m ρ c)) = X at a ⊢
  after_results
  exact a

end Cert.KernelIdeal.FirstStretch

end
-- ==== Proof.Whole.lean ====
/-
  The whole kernel program against the whole reference.

  With every region read as one operation (the encoder, the first transform, three fused layers, the decoder), the
  kernel program is a single line of host operations: the edge list's two rows with the self loops appended, the
  node degrees by a scatter-add of ones, their inverse square roots where the degree is positive, the per-edge weight
  as the product of the two endpoints' values; then, layer by layer, gather the transformed rows at the source of each
  edge, scale by the edge weight, scatter-add into the destination rows.  The reference is the same line with each
  layer written out in whole-array operations, and the layers were defined in exactly that spelling.  So the two
  programs leave, at their results, one and the same composed term of the eight arguments.
-/
import proofs.«173528_j78958678770242_2_alg».proof.Proof.KernelRun
import proofs.«173528_j78958678770242_2_alg».proof.Proof.Encoder
import proofs.«173528_j78958678770242_2_alg».proof.Proof.Transform
import proofs.«173528_j78958678770242_2_alg».proof.Proof.Layer2
import proofs.«173528_j78958678770242_2_alg».proof.Proof.Layer3
import proofs.«173528_j78958678770242_2_alg».proof.Proof.Layer4
import proofs.«173528_j78958678770242_2_alg».proof.Proof.Decoder
import proofs.«173528_j78958678770242_2_alg».proof.Proof.ReferenceRun
import proofs.«173528_j78958678770242_2_alg».proof.Proof.FirstStretch

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem
open Cert.KernelIdeal.FirstStretch

variable (m : (ℓ : Loc nD τ sig) → Buf (Elt Ideal) ℓ) (ρ : Dev nD → PrngReg)

/-- The buffer contents after the last region: the fourteen segments folded over the launch contents, every region as
    its one operation. -/
theorem fold (c : Dev nD) :
    W14 m ρ c = Decoder.op.result (after hostOps5 (Layer4.op.result (after hostOps4 (Layer3.op.result (after hostOps3
      (Layer2.op.result (after hostOps2 (Transform.op.result (after hostOps1 (Encoder.op.result
        (after hostOps0_2 (after hostOps0_1 (after hostOps0 (W0 m ρ c)))))))))))))) :=
  (Decoder.exit_eq m ρ c).trans (congrArg (fun X => Decoder.op.result (after hostOps5 X))
    ((Layer4.exit_eq m ρ c).trans (congrArg (fun X => Layer4.op.result (after hostOps4 X))
      ((Layer3.exit_eq m ρ c).trans (congrArg (fun X => Layer3.op.result (after hostOps3 X))
        ((Layer2.exit_eq m ρ c).trans (congrArg (fun X => Layer2.op.result (after hostOps2 X))
          ((Transform.exit_eq m ρ c).trans (congrArg (fun X => Transform.op.result (after hostOps1 X))
            (Encoder.exit_eq m ρ c))))))))))

set_option maxRecDepth 65536 in
set_option maxHeartbeats 64000000 in
/-- From memories agreeing on the eight arguments, the reference's composed result term is what the kernel program's fold
    holds at its result: the same operations applied to the same arguments, read off the fold operation by operation. -/
theorem result_eq
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7)) :
    Cert.ReferenceIdeal.RunP.res_main_v123 m' c = W14 m ρ c (Proc.devRef .tc main_v100) := by
  rw [fold m ρ c]
  unfold Cert.ReferenceIdeal.RunP.res_main_v123
  rw [h0, h1, h2, h3, h4, h5, h6, h7]
  symm
  have l5 := third_source m ρ c
  have l6 := third_target m ρ c
  have l30 := third_weight m ρ c
  have a0 := third_arg0 m ρ c
  have a1 := third_arg1 m ρ c
  have a2 := third_arg2 m ρ c
  have a3 := third_arg3 m ρ c
  have a4 := third_arg4 m ρ c
  have a5 := third_arg5 m ρ c
  have a6 := third_arg6 m ρ c
  have a7 := third_arg7 m ρ c
  generalize after hostOps0_2 (after hostOps0_1 (after hostOps0 (W0 m ρ c))) = X at l5 l6 l30 a0 a1 a2 a3 a4 a5 a6 a7 ⊢
  after_results_simp
  simp only [l5, l6, l30, a0, a1, a2, a3, a4, a5, a6, a7]
  rfl

end Cert.KernelIdeal.Whole

end
-- ==== Proof.lean ====
/-
  The certificate of a four-layer graph convolution network on 100000 nodes: the kernel program against its reference.

  Both programs compute, from node features x, an edge list, and the weights and biases of an encoder, four graph layers
  and a decoder: the symmetric edge weights d(src)^(-1/2) d(dst)^(-1/2) of the graph with self loops, h0 = relu(x W + b),
  then four times a = scatter-add over destinations of (weight · (h W_l) at the source), h = relu(a + b_l), and finally
  h W' + b'.  The kernel program runs every dense step as a pipelined region over ten blocks of 10000 rows, fusing the bias
  and the clip of one layer into the product of the next; the edge weights, the gathers and the scatter-adds are the same
  host operations in both programs.  A block of rows of a dense layer is the layer's function of those rows, so each
  region rewrites the buffers as one whole-array operation would (Encoder … Decoder), the kernel program is one line of
  operations (Whole), and its result is the reference's composed term of the arguments.  No finiteness of the inputs is used:
  no sum is rearranged, only cut into row blocks.

  The frames of the two kernel programs are the generated ones; the reference's frame is its run with the result dropped;
  the ideal pass rewrote nothing, so `preserves` is trivial.
-/
import proofs.«173528_j78958678770242_2_alg».proof.Defs
import proofs.«173528_j78958678770242_2_alg».proof.Proof.Gen.Kernel
import proofs.«173528_j78958678770242_2_alg».proof.Proof.Gen.Kernel.Frame
import proofs.«173528_j78958678770242_2_alg».proof.Proof.Gen.KernelIdeal
import proofs.«173528_j78958678770242_2_alg».proof.Proof.Gen.KernelIdeal.Frame
import proofs.«173528_j78958678770242_2_alg».proof.Proof.Gen.ReferenceIdeal
import proofs.«173528_j78958678770242_2_alg».proof.Proof.Gen.Pre_finite_inputs
import proofs.«173528_j78958678770242_2_alg».proof.Proof.ReferenceRun
import proofs.«173528_j78958678770242_2_alg».proof.Proof.KernelRun
import proofs.«173528_j78958678770242_2_alg».proof.Proof.Whole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- At the ideal instance both programs end with the result at one composed term of the arguments: the kernel program's
    fold of its segments, every region one whole-array operation, against the reference's line of operations. -/
theorem algebraic : Cert.algebraic_KernelIdeal_ReferenceIdeal := by
  intro m ρ m' ρ' _ hagree
  refine ⟨fun c => Cert.KernelIdeal.Gen.W14 m ρ c (Proc.devRef .tc Cert.KernelIdeal.main_v100),
    Cert.KernelIdeal.Result.run (F := Ideal) m ρ, ?_⟩
  refine (θ_run Cert.ReferenceIdeal.defs _ _).mono (fun _ h c => ⟨(h c).1.trans ?_, (h c).2⟩)
    (Cert.ReferenceIdeal.RunP.run (F := Ideal) m' ρ')
  exact Cert.KernelIdeal.Whole.result_eq m ρ m' c (hagree c).1 (hagree c).2.1 (hagree c).2.2.1 (hagree c).2.2.2.1
    (hagree c).2.2.2.2.1 (hagree c).2.2.2.2.2.1 (hagree c).2.2.2.2.2.2.1 (hagree c).2.2.2.2.2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
